-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S2x128 .f32) (main_arg14 : FVec F S128x64 .f32) (main_arg15 : FVec F S64 .f32) (main_v48 : IVec S_ 1) (main_v49 : FVec F S2x128x128 .f32) (main_v50 : FVec F S2x128x128 .f32) : IVec S_ 1 :=
  let main_v51 : IVec S2x128x128 1 := cmpf .olt main_v49 main_v50
  let main_c_19 : IVec S_ 1 := constantI S_ 1 1#1
  let main_v52 : IVec S_ 1 := (fun x v => Host.reduce IntOp.andi x v reducesTo_S2x128x128_S_d0_1_2 h_S_) main_v51 main_c_19
  let main_v53 : IVec S_ 1 := andi main_v48 main_v52
  let main_v54 : FVec F S2x128 .f32 := Host.absf main_arg13
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S2x128x128 .f32) (main_arg10 : FVec F S2x128 .f32) (main_arg11 : FVec F S2x128x128 .f32) (main_arg12 : FVec F S2x128x128 .f32) (main_arg13 : FVec F S2x128 .f32) (main_arg14 : FVec F S128x64 .f32) (main_arg15 : FVec F S64 .f32) (main_v33 : IVec S_ 1) : IVec S_ 1 :=
  let main_v34 : FVec F S2x128x128 .f32 := Host.absf main_arg9
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128x128 .f32 := Host.absf main_arg11
  let main_cst_16 : FVec F S_ .f32 := constant S_ .f32 0x7F800000#32
  let main_v45 : FVec F S2x128x128 .f32 := broadcastInDim S2x128x128 ![] bcast_S_S2x128x128 main_cst_16
  let main_v46 : IVec S2x128x128 1 := cmpf .olt main_v44 main_v45
  let main_c_17 : IVec S_ 1 := constantI S_ 1 1#1
  let main_v47 : IVec S_ 1 := (fun x v => Host.reduce IntOp.andi x v reducesTo_S2x128x128_S_d0_1_2 h_S_) main_v46 main_c_17
  let main_v48 : IVec S_ 1 := andi main_v43 main_v47
  let main_v49 : FVec F S2x128x128 .f32 := Host.absf main_arg12
  let main_cst_18 : FVec F S_ .f32 := constant S_ .f32 0x7F800000#32
  let main_v50 : FVec F S2x128x128 .f32 := broadcastInDim S2x128x128 ![] bcast_S_S2x128x128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S2x128x128 .f32) (main_arg9 : FVec F S2x128x128 .f32) (main_arg10 : FVec F S2x128 .f32) (main_arg11 : FVec F S2x128x128 .f32) (main_arg12 : FVec F S2x128x128 .f32) (main_arg13 : FVec F S2x128 .f32) (main_arg14 : FVec F S128x64 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x128x128 .f32 := Host.absf main_arg8
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S50000x128 .f32) (main_arg2 : IVec S2x1600000 32) (main_arg3 : IVec S2x1600000 32) (main_arg4 : FVec F S128x128 .f32) (main_arg5 : FVec F S128 .f32) (main_arg6 : FVec F S128x128 .f32) (main_arg7 : FVec F S128 .f32) (main_arg8 : FVec F S2x128x128 .f32) (main_arg9 : FVec F S2x128x128 .f32) (main_arg10 : FVec F S2x128 .f32) (main_arg11 : FVec F S2x128x128 .f32) (main_arg12 : FVec F S2x128x128 .f32) (main_arg13 : FVec F S2x128 .f32) (main_arg14 : FVec F S128x64 .f32) (main_arg15 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S2000x128 : Shape := ⟨2, ![2000, 128]⟩
abbrev S1x128 : Shape := ⟨2, ![1, 128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128x128 : Shape := ⟨3, ![1, 128, 128]⟩
abbrev S2000x1 : Shape := ⟨2, ![2000, 1]⟩
abbrev S50000x64 : Shape := ⟨2, ![50000, 64]⟩
abbrev S2000x64 : Shape := ⟨2, ![2000, 64]⟩
abbrev S1x64 : Shape := ⟨2, ![1, 64]⟩

abbrev nBuf : Space → Nat
  | .hbm => 123
  | .vmem => 47
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x1600000, .i32⟩
  | .hbm, ⟨3, _⟩ => ⟨S2x1600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2x128x128, .f32⟩
  | .hbm, ⟨9, _⟩ => ⟨S2x128x128, .f32⟩
  | .hbm, ⟨10, _⟩ => ⟨S2x128, .f32⟩
  | .hbm, ⟨11, _⟩ => ⟨S2x128x128, .f32⟩
  | .hbm, ⟨12, _⟩ => ⟨S2x128x128, .f32⟩
  | .hbm, ⟨13, _⟩ => ⟨S2x128, .f32⟩
  | .hbm, ⟨14, _⟩ => ⟨S128x64, .f32⟩
  | .hbm, ⟨15, _⟩ => ⟨S64, .f32⟩
  | .hbm, ⟨16, _⟩ => ⟨S50000x128, .bf16⟩
  | .hbm, ⟨17, _⟩ => ⟨S50000x128, .bf16⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S50000, .f32⟩
  | .hbm, ⟨24, _⟩ => ⟨S1600000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S1x1600000, .i32⟩
  | .hbm, ⟨34, _⟩ => ⟨S1600000, .i32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S50000, .f32⟩
  | .hbm, ⟨39, _⟩ => ⟨S1600000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S1x1600000, .i32⟩
  | .hbm, ⟨49, _⟩ => ⟨S1600000, .i32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .bf16⟩
  | .hbm, ⟨61, _⟩ => ⟨S1600000x128, .f32⟩
  | .hbm, ⟨62, _⟩ => ⟨S_, .f32⟩
  | .hbm, ⟨63, _⟩ => ⟨S50000x128, .f32⟩
  | .hbm, ⟨64, _⟩ => ⟨S1600000x1, .i32⟩
  | .hbm, ⟨65, _⟩ => ⟨S50000x128, .f32⟩
  | .hbm, ⟨66, _⟩ => ⟨S1x128x128, .f32⟩
  | .hbm, ⟨67, _⟩ => ⟨S128x128, .f32⟩
  | .hbm, ⟨68, _⟩ => ⟨S1x128x128, .f32⟩
  | .hbm, ⟨69, _⟩ => ⟨S128x128, .f32⟩
  | .hbm, ⟨70, _⟩ => ⟨S1x128, .f32⟩
  | .hbm, ⟨71, _⟩ => ⟨S128, .f32⟩
  | .hbm, ⟨72, _⟩ => ⟨S50000x128, .bf16⟩
  | .hbm, ⟨73, _⟩ => ⟨S1x1600000, .i32⟩
  | .hbm, ⟨74, _⟩ => ⟨S1600000, .i32⟩
  | .hbm, ⟨75, _⟩ => ⟨S1x1600000, .i32⟩
  | .hbm, ⟨76, _⟩ => ⟨S1600000, .i32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .bf16⟩
  | .hbm, ⟨86, _⟩ => ⟨S1600000x128, .f32⟩
  | .hbm, ⟨87, _⟩ => ⟨S_, .f32⟩
  | .hbm, ⟨88, _⟩ => ⟨S50000x128, .f32⟩
  | .hbm, ⟨89, _⟩ => ⟨S1600000x1, .i32⟩
  | .hbm, ⟨90, _⟩ => ⟨S50000x128, .f32⟩
  | .hbm, ⟨91, _⟩ => ⟨S1x128x128, .f32⟩
  | .hbm, ⟨92, _⟩ => ⟨S128x128, .f32⟩
  | .hbm, ⟨93, _⟩ => ⟨S1x128x128, .f32⟩
  | .hbm, ⟨94, _⟩ => ⟨S128x128, .f32⟩
  | .hbm, ⟨95, _⟩ => ⟨S1x128, .f32⟩
  | .hbm, ⟨96, _⟩ => ⟨S128, .f32⟩
  | .hbm, ⟨97, _⟩ => ⟨S50000x128, .bf16⟩
  | .hbm, ⟨98, _⟩ => ⟨S1x1600000, .i32⟩
  | .hbm, ⟨99, _⟩ => ⟨S1600000, .i32⟩
  | .hbm, ⟨100, _⟩ => ⟨S1x1600000, .i32⟩
  | .hbm, ⟨101, _⟩ => ⟨S1600000, .i32⟩
  | .hbm, ⟨102, _⟩ => ⟨S_, .i32⟩
  | .hbm, ⟨103, _⟩ => ⟨S1600000, .i32⟩
  | .hbm, ⟨104, _⟩ => ⟨S1600000, .i1⟩
  | .hbm, ⟨105, _⟩ => ⟨S_, .i32⟩
  | .hbm, ⟨106, _⟩ => ⟨S1600000, .i32⟩
  | .hbm, ⟨107, _⟩ => ⟨S1600000, .i32⟩
  | .hbm, ⟨108, _⟩ => ⟨S1600000, .i32⟩
  | .hbm, ⟨109, _⟩ => ⟨S1600000x1, .i32⟩
  | .hbm, ⟨110, _⟩ => ⟨S1600000x128, .bf16⟩
  | .hbm, ⟨111, _⟩ => ⟨S1600000x128, .f32⟩
  | .hbm, ⟨112, _⟩ => ⟨S_, .f32⟩
  | .hbm, ⟨113, _⟩ => ⟨S50000x128, .f32⟩
  | .hbm, ⟨114, _⟩ => ⟨S1600000x1, .i32⟩
  | .hbm, ⟨115, _⟩ => ⟨S50000x128, .f32⟩
  | .hbm, ⟨116, _⟩ => ⟨S1x128x128, .f32⟩
  | .hbm, ⟨117, _⟩ => ⟨S128x128, .f32⟩
  | .hbm, ⟨118, _⟩ => ⟨S1x128x128, .f32⟩
  | .hbm, ⟨119, _⟩ => ⟨S128x128, .f32⟩
  | .hbm, ⟨120, _⟩ => ⟨S1x128, .f32⟩
  | .hbm, ⟨121, _⟩ => ⟨S128, .f32⟩
  | .hbm, ⟨122, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .bf16⟩
  | .local _ .vmem, ⟨5, _⟩ => ⟨S2000x128, .bf16⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S128, .f32⟩
  | .local _ .vmem, ⟨10, _⟩ => ⟨S2000x128, .bf16⟩
  | .local _ .vmem, ⟨11, _⟩ => ⟨S2000x128, .bf16⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S2000x128, .bf16⟩
  | .local _ .vmem, ⟨17, _⟩ => ⟨S2000x128, .bf16⟩
  | .local _ .vmem, ⟨18, _⟩ => ⟨S128x128, .f32⟩
  | .local _ .vmem, ⟨19, _⟩ => ⟨S128x128, .f32⟩
  | .local _ .vmem, ⟨20, _⟩ => ⟨S128, .f32⟩
  | .local _ .vmem, ⟨21, _⟩ => ⟨S2000x128, .bf16⟩
  | .local _ .vmem, ⟨22, _⟩ => ⟨S2000x128, .bf16⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S2000x128, .bf16⟩
  | .local _ .vmem, ⟨28, _⟩ => ⟨S2000x128, .bf16⟩
  | .local _ .vmem, ⟨29, _⟩ => ⟨S128x128, .f32⟩
  | .local _ .vmem, ⟨30, _⟩ => ⟨S128x128, .f32⟩
  | .local _ .vmem, ⟨31, _⟩ => ⟨S128, .f32⟩
  | .local _ .vmem, ⟨32, _⟩ => ⟨S2000x128, .bf16⟩
  | .local _ .vmem, ⟨33, _⟩ => ⟨S2000x128, .bf16⟩
  | .local _ .vmem, ⟨34, _⟩ => ⟨S2000x128, .f32⟩
  | .local _ .vmem, ⟨35, _⟩ => ⟨S2000x128, .f32⟩
  | .local _ .vmem, ⟨36, _⟩ => ⟨S2000x1, .f32⟩
  | .local _ .vmem, ⟨37, _⟩ => ⟨S2000x1, .f32⟩
  | .local _ .vmem, ⟨38, _⟩ => ⟨S2000x128, .bf16⟩
  | .local _ .vmem, ⟨39, _⟩ => ⟨S2000x128, .bf16⟩
  | .local _ .vmem, ⟨40, _⟩ => ⟨S128x128, .f32⟩
  | .local _ .vmem, ⟨41, _⟩ => ⟨S128x128, .f32⟩
  | .local _ .vmem, ⟨42, _⟩ => ⟨S128, .f32⟩
  | .local _ .vmem, ⟨43, _⟩ => ⟨S128x64, .f32⟩
  | .local _ .vmem, ⟨44, _⟩ => ⟨S64, .f32⟩
  | .local _ .vmem, ⟨45, _⟩ => ⟨S2000x64, .f32⟩
  | .local _ .vmem, ⟨46, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_5 : Ref sig .tc := ⟨.hbm, 41, rfl⟩
abbrev main_v19 : Ref sig .tc := ⟨.hbm, 42, rfl⟩
abbrev main_v20 : Ref sig .tc := ⟨.hbm, 43, rfl⟩
abbrev main_cst_6 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_12 : Ref sig .tc := ⟨.hbm, 102, rfl⟩
abbrev main_v72 : Ref sig .tc := ⟨.hbm, 103, rfl⟩
abbrev main_v73 : Ref sig .tc := ⟨.hbm, 104, rfl⟩
abbrev main_c_13 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_14 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg7_0 : Ref sig .tc := ⟨.vmem, 44, rfl⟩
abbrev cc4_stg8_0 : Ref sig .tc := ⟨.vmem, 45, rfl⟩
abbrev cc4_stg8_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem7_0 : DmaSem sig := 44
abbrev cc4_sem8_0 : DmaSem sig := 45
abbrev cc4_sem8_1 : DmaSem sig := 46

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2000x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  slices_S2x1600000_S1x1600000_0_0 : S2x1600000.Slices ![0, 0] S1x1600000
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S128x128_S128x128 : S128x128.ShapeCasts S128x128
  shapeCasts_S128_S128 : S128.ShapeCasts S128
  slices_S2x128x128_S1x128x128_1_0_0 : S2x128x128.Slices ![1, 0, 0] S1x128x128
  slices_S2x128_S1x128_1_0 : S2x128.Slices ![1, 0] S1x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  dot_S2000x128_S128x128_S2000x128_1_0_0_1_n_n_wf : DotDims.WF S2000x128 S128x128 S2000x128 [1] [0] [0] [1] [] []
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .bf16 = 32 ∨ (Rect.block (s := S50000x128) S2000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .bf16 = 32 ∨ (Rect.block (s := S50000x128) S2000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .bf16 = 32 ∨ (Rect.block (s := S50000x128) S2000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .bf16 = 32 ∨ (Rect.block (s := S50000x128) S2000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .bf16 = 32 ∨ (Rect.block (s := S50000x128) S2000x128.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .bf16 = 32 ∨ (Rect.block (s := S50000x128) S2000x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x64.size a ≤ S128x64.size a
  hwx4_6 : ∀ i : grid4.Coords, EltTy.bits .f32 = 32 ∨ (Rect.block (s := S128x64) S128x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64.size a ≤ S64.size a
  hwx4_7 : ∀ i : grid4.Coords, EltTy.bits .f32 = 32 ∨ (Rect.block (s := S64) S64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x64.size a ≤ S50000x64.size a
  hwx4_8 : ∀ i : grid4.Coords, EltTy.bits .f32 = 32 ∨ (Rect.block (s := S50000x64) S2000x64.size (cc4_transform_8 i) (hinb4_8 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v67) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v82) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v67) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v84) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg14) S128x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg15) S64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v89) S2000x64.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128x128 : Shape := ⟨3, ![1, 128, 128]⟩
abbrev S50000x64 : Shape := ⟨2, ![50000, 64]⟩
abbrev S1x64 : Shape := ⟨2, ![1, 64]⟩

abbrev nBuf : Space → Nat
  | .hbm => 210
  | .vmem => 0
  | .smem => 0
  | _ => 0

abbrev hbmTy0_0 (i : Nat) : BufTy := match i % 128 with
  | 0 => ⟨S50000x128, .f32⟩
  | 1 => ⟨S50000x128, .f32⟩
  | 2 => ⟨S2x1600000, .i32⟩
  | 3 => ⟨S2x1600000, .i32⟩
  | 4 => ⟨S128x128, .f32⟩
  | 5 => ⟨S128, .f32⟩
  | 6 => ⟨S128x128, .f32⟩
  | 7 => ⟨S128, .f32⟩
  | 8 => ⟨S2x128x128, .f32⟩
  | 9 => ⟨S2x128x128, .f32⟩
  | 10 => ⟨S2x128, .f32⟩
  | 11 => ⟨S2x128x128, .f32⟩
  | 12 => ⟨S2x128x128, .f32⟩
  | 13 => ⟨S2x128, .f32⟩
  | 14 => ⟨S128x64, .f32⟩
  | 15 => ⟨S64, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S1x1600000, .i32⟩
  | 31 => ⟨S1600000, .i32⟩
  | 32 => ⟨S1x1600000, .i32⟩
  | 33 => ⟨S1600000, .i32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S50000x128, .f32⟩
  | 45 => ⟨S1600000x1, .i32⟩
  | 46 => ⟨S50000x128, .f32⟩
  | 47 => ⟨S_, .f32⟩
  | 48 => ⟨S1600000, .f32⟩
  | 49 => ⟨S_, .f32⟩
  | 50 => ⟨S50000, .f32⟩
  | 51 => ⟨S1600000x1, .i32⟩
  | 52 => ⟨S50000, .f32⟩
  | 53 => ⟨S_, .f32⟩
  | 54 => ⟨S50000, .f32⟩
  | 55 => ⟨S50000, .f32⟩
  | 56 => ⟨S50000x1, .f32⟩
  | 57 => ⟨S50000x128, .f32⟩
  | 58 => ⟨S50000x128, .f32⟩
  | 59 => ⟨S1x128x128, .f32⟩
  | 60 => ⟨S128x128, .f32⟩
  | 61 => ⟨S50000x128, .f32⟩
  | 62 => ⟨S1x128, .f32⟩
  | 63 => ⟨S128, .f32⟩
  | 64 => ⟨S1x128, .f32⟩
  | 65 => ⟨S50000x128, .f32⟩
  | 66 => ⟨S50000x128, .f32⟩
  | 67 => ⟨S1x128x128, .f32⟩
  | 68 => ⟨S128x128, .f32⟩
  | 69 => ⟨S50000x128, .f32⟩
  | 70 => ⟨S50000x128, .f32⟩
  | 71 => ⟨S1x1600000, .i32⟩
  | 72 => ⟨S1600000, .i32⟩
  | 73 => ⟨S1x1600000, .i32⟩
  | 74 => ⟨S1600000, .i32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S_, .f32⟩
  | 85 => ⟨S50000x128, .f32⟩
  | 86 => ⟨S1600000x1, .i32⟩
  | 87 => ⟨S50000x128, .f32⟩
  | 88 => ⟨S_, .f32⟩
  | 89 => ⟨S1600000, .f32⟩
  | 90 => ⟨S_, .f32⟩
  | 91 => ⟨S50000, .f32⟩
  | 92 => ⟨S1600000x1, .i32⟩
  | 93 => ⟨S50000, .f32⟩
  | 94 => ⟨S_, .f32⟩
  | 95 => ⟨S50000, .f32⟩
  | 96 => ⟨S50000, .f32⟩
  | 97 => ⟨S50000x1, .f32⟩
  | 98 => ⟨S50000x128, .f32⟩
  | 99 => ⟨S50000x128, .f32⟩
  | 100 => ⟨S1x128x128, .f32⟩
  | 101 => ⟨S128x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S1x128x128, .f32⟩
  | 109 => ⟨S128x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S1x1600000, .i32⟩
  | 119 => ⟨S1600000, .i32⟩
  | 120 => ⟨S1x1600000, .i32⟩
  | 121 => ⟨S1600000, .i32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S50000x128, .f32⟩

abbrev hbmTy0_1 (i : Nat) : BufTy := match i % 128 with
  | 0 => ⟨S1600000, .i32⟩
  | 1 => ⟨S1600000x1, .i32⟩
  | 2 => ⟨S1600000x128, .f32⟩
  | 3 => ⟨S_, .f32⟩
  | 4 => ⟨S50000x128, .f32⟩
  | 5 => ⟨S1600000x1, .i32⟩
  | 6 => ⟨S50000x128, .f32⟩
  | 7 => ⟨S_, .f32⟩
  | 8 => ⟨S1600000, .f32⟩
  | 9 => ⟨S_, .f32⟩
  | 10 => ⟨S50000, .f32⟩
  | 11 => ⟨S1600000x1, .i32⟩
  | 12 => ⟨S50000, .f32⟩
  | 13 => ⟨S_, .f32⟩
  | 14 => ⟨S50000, .f32⟩
  | 15 => ⟨S50000, .f32⟩
  | 16 => ⟨S50000x1, .f32⟩
  | 17 => ⟨S50000x128, .f32⟩
  | 18 => ⟨S50000x128, .f32⟩
  | 19 => ⟨S1x128x128, .f32⟩
  | 20 => ⟨S128x128, .f32⟩
  | 21 => ⟨S50000x128, .f32⟩
  | 22 => ⟨S1x128, .f32⟩
  | 23 => ⟨S128, .f32⟩
  | 24 => ⟨S1x128, .f32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S50000x128, .f32⟩
  | 31 => ⟨S1x1600000, .i32⟩
  | 32 => ⟨S1600000, .i32⟩
  | 33 => ⟨S1x1600000, .i32⟩
  | 34 => ⟨S1600000, .i32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S_, .f32⟩
  | 45 => ⟨S50000x128, .f32⟩
  | 46 => ⟨S1600000x1, .i32⟩
  | 47 => ⟨S50000x128, .f32⟩
  | 48 => ⟨S_, .f32⟩
  | 49 => ⟨S1600000, .f32⟩
  | 50 => ⟨S_, .f32⟩
  | 51 => ⟨S50000, .f32⟩
  | 52 => ⟨S1600000x1, .i32⟩
  | 53 => ⟨S50000, .f32⟩
  | 54 => ⟨S_, .f32⟩
  | 55 => ⟨S50000, .f32⟩
  | 56 => ⟨S50000, .f32⟩
  | 57 => ⟨S50000x1, .f32⟩
  | 58 => ⟨S50000x128, .f32⟩
  | 59 => ⟨S50000x128, .f32⟩
  | 60 => ⟨S1x128x128, .f32⟩
  | 61 => ⟨S128x128, .f32⟩
  | 62 => ⟨S50000x128, .f32⟩
  | 63 => ⟨S1x128, .f32⟩
  | 64 => ⟨S128, .f32⟩
  | 65 => ⟨S1x128, .f32⟩
  | 66 => ⟨S50000x128, .f32⟩
  | 67 => ⟨S50000x128, .f32⟩
  | 68 => ⟨S1x128x128, .f32⟩
  | 69 => ⟨S128x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x64, .f32⟩
  | 79 => ⟨S1x64, .f32⟩
  | 80 => ⟨S50000x64, .f32⟩
  | 81 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_4 : Ref sig .tc := ⟨.hbm, 75, rfl⟩
abbrev main_v49 : Ref sig .tc := ⟨.hbm, 76, rfl⟩
abbrev main_v50 : Ref sig .tc := ⟨.hbm, 77, rfl⟩
abbrev main_c_5 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_6 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_cst_8 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call2_cst : Ref sig .tc := ⟨.hbm, 112, rfl⟩
abbrev main_call2_v0 : Ref sig .tc := ⟨.hbm, 113, rfl⟩
abbrev main_v80 : Ref sig .tc := ⟨.hbm, 114, rfl⟩
abbrev main_call3_cst : Ref sig .tc := ⟨.hbm, 115, rfl⟩
abbrev main_call3_v0 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_10 : Ref sig .tc := ⟨.hbm, 122, rfl⟩
abbrev main_v86 : Ref sig .tc := ⟨.hbm, 123, rfl⟩
abbrev main_v87 : Ref sig .tc := ⟨.hbm, 124, rfl⟩
abbrev main_c_11 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_12 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_13 : Ref sig .tc := ⟨.hbm, 135, rfl⟩
abbrev main_v96 : Ref sig .tc := ⟨.hbm, 136, rfl⟩
abbrev main_cst_14 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_15 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_16 : Ref sig .tc := ⟨.hbm, 163, rfl⟩
abbrev main_v121 : Ref sig .tc := ⟨.hbm, 164, rfl⟩
abbrev main_v122 : Ref sig .tc := ⟨.hbm, 165, rfl⟩
abbrev main_c_17 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_18 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_19 : Ref sig .tc := ⟨.hbm, 176, rfl⟩
abbrev main_v131 : Ref sig .tc := ⟨.hbm, 177, rfl⟩
abbrev main_cst_20 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_21 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_call4_cst : Ref sig .tc := ⟨.hbm, 200, rfl⟩
abbrev main_call4_v0 : Ref sig .tc := ⟨.hbm, 201, rfl⟩
abbrev main_v152 : Ref sig .tc := ⟨.hbm, 202, rfl⟩
abbrev main_call5_cst : Ref sig .tc := ⟨.hbm, 203, rfl⟩
abbrev main_call5_v0 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's whole run with the final contents of every unscoped buffer named.

  The program is five kernel regions among stretches of host operations.  The generated frame proves that
  every weakly fair execution terminates and leaves the argument arrays as launched; it does so by running
  the eight segments in order over the thread state "every unscoped buffer at the boundary's contents".
  The same run says more than the frame keeps: at the end EVERY unscoped buffer holds the last boundary's
  contents `W8` — in particular the result array, which is region 4's output window.  This module states
  that stronger post; the value modules then read `W8` at the result array back through the fold.
-/
import proofs.«103222_j29746943492593_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each unscoped
    buffer of each core holds the contents the last segment boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The same run, keeping the result array and the sixteen argument arrays. -/
theorem run_result : θ_run defs (onTc (τ := τ) (main (F := F))) ⟨m, fun _ => 0, ρ⟩ (fun r => ∀ c : Dev nD,
      r.2.mem ((c.tc : Thread nD τ).loc main_v89) = W8 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun s h c =>
      ⟨h c _ (mem_uc main_v89 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)
    (run_all m ρ)

end Cert.KernelIdeal.Whole

end
-- ==== Proof.Spec.lean ====
/-
  The network both programs compute, written once over the extended reals.

  A node table has 50000 rows of 128 features.  Three pointwise-in-the-row building blocks occur:
  * a dense layer with a rectifier, `max (x·W + b) 0`;
  * the neighbour-mean layer: the summed neighbour features of a row, divided by the row's (clamped) neighbour
    count, go through one matrix, the row's own features through another, a bias is added and the rectifier applied;
  * the output head `y·W + b`.
  The two programs differ in how they divide (a quotient by the count, or a product with its reciprocal) and in the
  order in which they add the three summands of the neighbour-mean layer.  Both differences vanish on the extended
  reals without any finiteness assumption: the clamped count is at least one, hence not zero, so the quotient IS the
  product with the inverse; and addition is commutative and associative.
-/
import Idealize.ShloMosaic.PureOps.Ideal.Laws
import Idealize.ShloMosaic.Lib.ValueIdx

noncomputable section

namespace Cert.Sage

open Idealize.ShloMosaic Idealize.ShloMosaic.ValueIdx

abbrev SN : Shape := ⟨2, ![50000, 128]⟩
abbrev SW : Shape := ⟨2, ![128, 128]⟩
abbrev SB : Shape := ⟨1, ![128]⟩
abbrev SC : Shape := ⟨2, ![50000, 1]⟩
abbrev SC1 : Shape := ⟨1, ![50000]⟩
abbrev SWo : Shape := ⟨2, ![128, 64]⟩
abbrev SBo : Shape := ⟨1, ![64]⟩
abbrev SO : Shape := ⟨2, ![50000, 64]⟩

/-- One entry of a dense layer with a rectifier: row `r` of `x` against column `q` of `w`, plus the bias, clamped at 0. -/
def denseAt (x : SN.Idx → EReal) (w : SW.Idx → EReal) (b : SB.Idx → EReal) (r : Fin 50000) (q : Fin 128) : EReal :=
  max ((∑ k : Fin 128, x (ix2 r k) * w (ix2 k q)) + b (ix1 q)) 0

/-- The dense layer as a table. -/
def dense (x : SN.Idx → EReal) (w : SW.Idx → EReal) (b : SB.Idx → EReal) : SN.Idx → EReal :=
  fun i => denseAt x w b (i 0) (i 1)

/-- One entry of the neighbour-mean layer, the mean taken as a product with a per-row factor `inv`, the bias added last. -/
def combineAt (s : SN.Idx → EReal) (inv : SC.Idx → EReal) (h : SN.Idx → EReal) (wl wr : SW.Idx → EReal) (b : SB.Idx → EReal)
    (r : Fin 50000) (q : Fin 128) : EReal :=
  max (((∑ k : Fin 128, (s (ix2 r k) * inv (ix2 r (0 : Fin 1))) * wl (ix2 k q)) + (∑ k : Fin 128, h (ix2 r k) * wr (ix2 k q)))
    + b (ix1 q)) 0

/-- The neighbour-mean layer as a table. -/
def combine (s : SN.Idx → EReal) (inv : SC.Idx → EReal) (h : SN.Idx → EReal) (wl wr : SW.Idx → EReal) (b : SB.Idx → EReal) :
    SN.Idx → EReal :=
  fun i => combineAt s inv h wl wr b (i 0) (i 1)

/-- One entry of the output head. -/
def headAt (y : SN.Idx → EReal) (wo : SWo.Idx → EReal) (bo : SBo.Idx → EReal) (r : Fin 50000) (q : Fin 64) : EReal :=
  (∑ j : Fin 128, y (ix2 r j) * wo (ix2 j q)) + bo (ix1 q)

/-- The output head as a table. -/
def head (y : SN.Idx → EReal) (wo : SWo.Idx → EReal) (bo : SBo.Idx → EReal) : SO.Idx → EReal :=
  fun i => headAt y wo bo (i 0) (i 1)

/-- The float word of 1.0 denotes the real number one. -/
theorem ofBits_one_f32 : Ideal.ofBits .f32 0x3F800000#32 = 1 := by
  simp [Ideal.ofBits, Ideal.ieee]
  rw [← EReal.coe_mul]; norm_num

/-- The reciprocal of the neighbour count clamped below at one, as the one-column table the kernel multiplies with. -/
def recip (n : SC1.Idx → EReal) : SC.Idx → EReal := fun i => Ideal.div 1 (max (n (ix1 (i 0))) 1)

/-- One entry of the neighbour-mean layer, the mean taken as a quotient by the clamped count `max n 1`, the own-feature
    product added last. -/
def combineQuotAt (s : SN.Idx → EReal) (n : SC1.Idx → EReal) (h : SN.Idx → EReal) (wl wr : SW.Idx → EReal) (b : SB.Idx → EReal)
    (r : Fin 50000) (q : Fin 128) : EReal :=
  max (((∑ k : Fin 128, Ideal.div (s (ix2 r k)) (max (n (ix1 r)) 1) * wl (ix2 k q)) + b (ix1 q))
    + (∑ k : Fin 128, h (ix2 r k) * wr (ix2 k q))) 0

/-- A count clamped below at one is not zero. -/
theorem clamp_ne_zero (n : EReal) : max n 1 ≠ 0 :=
  ne_of_gt (lt_of_lt_of_le (by exact_mod_cast (zero_lt_one : (0 : ℝ) < 1)) (le_max_right n 1))

/-- Multiplying by the reciprocal of a clamped count is dividing by it, for every extended real. -/
theorem mul_recip_clamp (s n : EReal) : s * Ideal.div 1 (max n 1) = Ideal.div s (max n 1) := by
  unfold Ideal.div
  rw [if_neg (clamp_ne_zero n), if_neg (clamp_ne_zero n), one_mul]

/-- The three summands of the neighbour-mean layer in the other order. -/
theorem add_swap_bias (a c b : EReal) : (a + c) + b = (a + b) + c := by
  rw [add_assoc, add_comm c b, ← add_assoc]

/-- The quotient form and the reciprocal form of the neighbour-mean layer are one function. -/
theorem combineQuotAt_eq (s : SN.Idx → EReal) (n : SC1.Idx → EReal) (h : SN.Idx → EReal) (wl wr : SW.Idx → EReal) (b : SB.Idx → EReal)
    (r : Fin 50000) (q : Fin 128) : combineQuotAt s n h wl wr b r q = combineAt s (recip n) h wl wr b r q := by
  unfold combineQuotAt combineAt
  rw [add_swap_bias]
  refine congrArg (fun z => max ((z + _) + _) 0) (Finset.sum_congr rfl fun k _ => ?_)
  rw [show recip n (ix2 r (0 : Fin 1)) = Ideal.div 1 (max (n (ix1 r)) 1) from rfl, mul_recip_clamp]

end Cert.Sage

end
-- ==== Proof.Body.lean ====
/-
  The five kernel bodies at an index, over the extended reals.

  Each body leaves in its output block a function of its input blocks.  Read at row p and column q:
  * the dense layer leaves  max (Σ_k x(p,k)·w(k,q) + b(q)) 0 ;
  * the neighbour-mean layer leaves  max ((Σ_k (s(p,k)·c(p,0))·wl(k,q) + Σ_k h(p,k)·wr(k,q)) + b(q)) 0 ;
  * the layer with the output head leaves  Σ_j y(p,j)·wo(j,q) + bo(q),  y the neighbour-mean layer's value.
  A change of float format is the identity on extended reals, a product into a zero accumulator is the plain sum over
  the contracted axis, a one-row array broadcast over the rows reads its row, a one-column array broadcast over the
  columns reads its column, and a cast to the same shape is the identity.
-/
import proofs.«103222_j29746943492593_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Body

open Cert.KernelIdeal Cert.KernelIdeal.Gen

/-- The origin of a rank-two block. -/
theorem hz2 : (![0, 0] : Fin 2 → Nat) = fun _ => 0 := funext fun a => by fin_cases a <;> rfl
/-- The origin of a rank-one block. -/
theorem hz1 : (![0] : Fin 1 → Nat) = fun _ => 0 := funext fun a => by fin_cases a; rfl

/-- The left operand's row coordinate is the output's row. -/
theorem mm128_l0 (i : S2000x128.Idx) (c : dot_S2000x128_S128x128_S2000x128_1_0_0_1_n_n.contr.Idx) : (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column coordinate is the contraction index. -/
theorem mm128_l1 (i : S2000x128.Idx) (c : dot_S2000x128_S128x128_S2000x128_1_0_0_1_n_n.contr.Idx) : (dot_S2000x128_S128x128_S2000x128_1_0_0_1_n_n.lhsIdx i c 1).val = (c ⟨0, by decide⟩).val :=
  dot_S2000x128_S128x128_S2000x128_1_0_0_1_n_n.lhsIdx_val_of_single rfl i c
/-- The right operand's row coordinate is the contraction index. -/
theorem mm128_r0 (i : S2000x128.Idx) (c : dot_S2000x128_S128x128_S2000x128_1_0_0_1_n_n.contr.Idx) : (dot_S2000x128_S128x128_S2000x128_1_0_0_1_n_n.rhsIdx i c 0).val = (c ⟨0, by decide⟩).val :=
  dot_S2000x128_S128x128_S2000x128_1_0_0_1_n_n.rhsIdx_val_of_single rfl i c
/-- The right operand's column coordinate is the output's column. -/
theorem mm128_r1 (i : S2000x128.Idx) (c : dot_S2000x128_S128x128_S2000x128_1_0_0_1_n_n.contr.Idx) : (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] by [128,128] product into a zero accumulator, read at (p, q): the sum over the contracted axis. -/
theorem mm128 {φ₁ φ₂ : FTy} (lhs : FVec Ideal S2000x128 φ₁) (rhs : FVec Ideal S128x128 φ₂) (p : Fin 2000) (q : Fin 128) :
    FloatOps.matmul dot_S2000x128_S128x128_S2000x128_1_0_0_1_n_n none lhs rhs (constant S2000x128 .f32 0x00000000#32) (ix2 p q)
      = ∑ k : Fin 128, lhs (ix2 p k) * rhs (ix2 k q) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact mm128_l0 _ _
    | ⟨1, _⟩ => exact (mm128_l1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (mm128_r0 _ _).trans hk
    | ⟨1, _⟩ => exact mm128_r1 _ _)
  rw [el, er]

/-- The left operand's row coordinate is the output's row. -/
theorem mm64_l0 (i : S2000x64.Idx) (c : dot_S2000x128_S128x64_S2000x64_1_0_0_1_n_n.contr.Idx) : (dot_S2000x128_S128x64_S2000x64_1_0_0_1_n_n.lhsIdx i c 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- The left operand's column coordinate is the contraction index. -/
theorem mm64_l1 (i : S2000x64.Idx) (c : dot_S2000x128_S128x64_S2000x64_1_0_0_1_n_n.contr.Idx) : (dot_S2000x128_S128x64_S2000x64_1_0_0_1_n_n.lhsIdx i c 1).val = (c ⟨0, by decide⟩).val :=
  dot_S2000x128_S128x64_S2000x64_1_0_0_1_n_n.lhsIdx_val_of_single rfl i c
/-- The right operand's row coordinate is the contraction index. -/
theorem mm64_r0 (i : S2000x64.Idx) (c : dot_S2000x128_S128x64_S2000x64_1_0_0_1_n_n.contr.Idx) : (dot_S2000x128_S128x64_S2000x64_1_0_0_1_n_n.rhsIdx i c 0).val = (c ⟨0, by decide⟩).val :=
  dot_S2000x128_S128x64_S2000x64_1_0_0_1_n_n.rhsIdx_val_of_single rfl i c
/-- The right operand's column coordinate is the output's column. -/
theorem mm64_r1 (i : S2000x64.Idx) (c : dot_S2000x128_S128x64_S2000x64_1_0_0_1_n_n.contr.Idx) : (dot_S2000x128_S128x64_S2000x64_1_0_0_1_n_n.rhsIdx i c 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- A [2000,128] by [128,64] product into a zero accumulator, read at (p, q): the sum over the contracted axis. -/
theorem mm64 {φ₁ φ₂ : FTy} (lhs : FVec Ideal S2000x128 φ₁) (rhs : FVec Ideal S128x64 φ₂) (p : Fin 2000) (q : Fin 64) :
    FloatOps.matmul dot_S2000x128_S128x64_S2000x64_1_0_0_1_n_n none lhs rhs (constant S2000x64 .f32 0x00000000#32) (ix2 p q)
      = ∑ k : Fin 128, lhs (ix2 p k) * rhs (ix2 k q) := by
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact mm64_l0 _ _
    | ⟨1, _⟩ => exact (mm64_l1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (mm64_r0 _ _).trans hk
    | ⟨1, _⟩ => exact mm64_r1 _ _)
  rw [el, er]

/-- A [2000,1] column broadcast to [2000,128] reads, at (p, c), the column's entry in row p. -/
theorem bcol (v : S2000x1.Idx → EReal) (h : S2000x1.Broadcasts S2000x128) (p : Fin 2000) (c : Fin 128) :
    broadcastTo S2000x128 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The dense layer's payload at (p, q): the row of the block against the weight's column, plus the bias, clamped at 0. -/
theorem pay0_apply (x0 : Vec Ideal S2000x128 .f32) (x1 : Vec Ideal S128x128 .f32) (x2 : Vec Ideal S128 .f32)
    (p : Fin 2000) (q : Fin 128) :
    k0_pay1 (F := Ideal) x0 x1 x2 (ix2 p q) = max ((∑ k : Fin 128, x0 (ix2 p k) * x1 (ix2 k q)) + x2 (ix1 q)) 0 := by
  unfold k0_pay1
  exact congrArg₂ max (congrArg₂ (· + ·) (mm128 _ _ p q)
    ((broadcastTo_1b_ab_apply _ _ p q).trans (shapeCast_a_1a_apply x2 _ 0 q))) Ideal.ofBits_zero_f32

/-- The neighbour-mean layer's payload at (p, q): the row of summed neighbour features, each entry times the row's
    factor, against the first weight's column; the row's own features against the second weight's column; the bias;
    clamped at 0. -/
theorem pay2_apply (x0 : Vec Ideal S2000x128 .f32) (x1 : Vec Ideal S2000x1 .f32) (x2 : Vec Ideal S2000x128 .bf16)
    (x3 x4 : Vec Ideal S128x128 .f32) (x5 : Vec Ideal S128 .f32) (p : Fin 2000) (q : Fin 128) :
    k2_pay1 (F := Ideal) x0 x1 x2 x3 x4 x5 (ix2 p q)
      = max (((∑ k : Fin 128, (x0 (ix2 p k) * x1 (ix2 p (0 : Fin 1))) * x3 (ix2 k q))
          + (∑ k : Fin 128, x2 (ix2 p k) * x4 (ix2 k q))) + x5 (ix1 q)) 0 := by
  unfold k2_pay1
  simp only [shapeCast_self]
  refine (congrArg₂ max (congrArg₂ (· + ·) (congrArg₂ (· + ·) (mm128 _ _ p q) (mm128 _ _ p q))
    ((broadcastTo_1b_ab_apply _ _ p q).trans (shapeCast_a_1a_apply x5 _ 0 q))) Ideal.ofBits_zero_f32).trans ?_
  refine congrArg (fun z => max ((z + _) + _) 0) (Finset.sum_congr rfl fun k _ => ?_)
  exact congrArg (fun z => (x0 (ix2 p k) * z) * x3 (ix2 k q)) (bcol x1 _ p k)

/-- The output head's payload at (p, q): the neighbour-mean layer's row at p against the head weight's column, plus
    the head bias. -/
theorem pay4_apply (x0 : Vec Ideal S2000x128 .f32) (x1 : Vec Ideal S2000x1 .f32) (x2 : Vec Ideal S2000x128 .bf16)
    (x3 x4 : Vec Ideal S128x128 .f32) (x5 : Vec Ideal S128 .f32) (x6 : Vec Ideal S128x64 .f32) (x7 : Vec Ideal S64 .f32)
    (p : Fin 2000) (q : Fin 64) :
    k4_pay1 (F := Ideal) x0 x1 x2 x3 x4 x5 x6 x7 (ix2 p q)
      = (∑ j : Fin 128, (max (((∑ k : Fin 128, (x0 (ix2 p k) * x1 (ix2 p (0 : Fin 1))) * x3 (ix2 k j))
          + (∑ k : Fin 128, x2 (ix2 p k) * x4 (ix2 k j))) + x5 (ix1 j)) 0) * x6 (ix2 j q)) + x7 (ix1 q) := by
  unfold k4_pay1
  refine (congrArg₂ (· + ·) (mm64 _ _ p q)
    ((broadcastTo_1b_ab_apply _ _ p q).trans (shapeCast_a_1a_apply x7 _ 0 q))).trans ?_
  refine congrArg (fun z => z + _) (Finset.sum_congr rfl fun j _ => ?_)
  exact congrArg (fun z => z * x6 (ix2 j q)) (pay2_apply x0 x1 x2 x3 x4 x5 p j)

/-- The first dense kernel's output block at (p, q). -/
theorem proj0_apply (x0 : Vec Ideal S2000x128 .f32) (x1 : Vec Ideal S128x128 .f32) (x2 : Vec Ideal S128 .f32) (p : Fin 2000) (q : Fin 128) : out0_3 (F := Ideal) x0 x1 x2 (ix2 p q) = max ((∑ k : Fin 128, x0 (ix2 p k) * x1 (ix2 k q)) + x2 (ix1 q)) 0 := by
  unfold out0_3
  rw [View.canon_unit_zero hz2]
  simp only [View.ld_unit_zero (S := S2000x128) hz2, View.ld_unit_zero (S := S128x128) hz2, View.ld_unit_zero (S := S128) hz1]
  exact pay0_apply x0 x1 x2 p q

/-- The second dense kernel's output block at (p, q). -/
theorem proj1_apply (x0 : Vec Ideal S2000x128 .f32) (x1 : Vec Ideal S128x128 .f32) (x2 : Vec Ideal S128 .f32) (p : Fin 2000) (q : Fin 128) : out1_3 (F := Ideal) x0 x1 x2 (ix2 p q) = max ((∑ k : Fin 128, x0 (ix2 p k) * x1 (ix2 k q)) + x2 (ix1 q)) 0 := by
  unfold out1_3
  rw [View.canon_unit_zero hz2]
  simp only [View.ld_unit_zero (S := S2000x128) hz2, View.ld_unit_zero (S := S128x128) hz2, View.ld_unit_zero (S := S128) hz1]
  exact pay0_apply x0 x1 x2 p q

/-- The first neighbour-mean kernel's output block at (p, q). -/
theorem comb2_apply (x0 : Vec Ideal S2000x128 .f32) (x1 : Vec Ideal S2000x1 .f32) (x2 : Vec Ideal S2000x128 .bf16) (x3 x4 : Vec Ideal S128x128 .f32) (x5 : Vec Ideal S128 .f32) (p : Fin 2000) (q : Fin 128) : out2_6 (F := Ideal) x0 x1 x2 x3 x4 x5 (ix2 p q) = max (((∑ k : Fin 128, (x0 (ix2 p k) * x1 (ix2 p (0 : Fin 1))) * x3 (ix2 k q)) + (∑ k : Fin 128, x2 (ix2 p k) * x4 (ix2 k q))) + x5 (ix1 q)) 0 := by
  unfold out2_6
  rw [View.canon_unit_zero hz2]
  simp only [View.ld_unit_zero (S := S2000x128) hz2, View.ld_unit_zero (S := S2000x1) hz2, View.ld_unit_zero (S := S128x128) hz2, View.ld_unit_zero (S := S128) hz1]
  exact pay2_apply x0 x1 x2 x3 x4 x5 p q

/-- The second neighbour-mean kernel's output block at (p, q). -/
theorem comb3_apply (x0 : Vec Ideal S2000x128 .f32) (x1 : Vec Ideal S2000x1 .f32) (x2 : Vec Ideal S2000x128 .bf16) (x3 x4 : Vec Ideal S128x128 .f32) (x5 : Vec Ideal S128 .f32) (p : Fin 2000) (q : Fin 128) : out3_6 (F := Ideal) x0 x1 x2 x3 x4 x5 (ix2 p q) = max (((∑ k : Fin 128, (x0 (ix2 p k) * x1 (ix2 p (0 : Fin 1))) * x3 (ix2 k q)) + (∑ k : Fin 128, x2 (ix2 p k) * x4 (ix2 k q))) + x5 (ix1 q)) 0 := by
  unfold out3_6
  rw [View.canon_unit_zero hz2]
  simp only [View.ld_unit_zero (S := S2000x128) hz2, View.ld_unit_zero (S := S2000x1) hz2, View.ld_unit_zero (S := S128x128) hz2, View.ld_unit_zero (S := S128) hz1]
  exact pay2_apply x0 x1 x2 x3 x4 x5 p q

/-- The output block of the kernel with the head at (p, q). -/
theorem head4_apply (x0 : Vec Ideal S2000x128 .f32) (x1 : Vec Ideal S2000x1 .f32) (x2 : Vec Ideal S2000x128 .bf16) (x3 x4 : Vec Ideal S128x128 .f32) (x5 : Vec Ideal S128 .f32) (x6 : Vec Ideal S128x64 .f32) (x7 : Vec Ideal S64 .f32) (p : Fin 2000) (q : Fin 64) : out4_8 (F := Ideal) x0 x1 x2 x3 x4 x5 x6 x7 (ix2 p q) = (∑ j : Fin 128, (max (((∑ k : Fin 128, (x0 (ix2 p k) * x1 (ix2 p (0 : Fin 1))) * x3 (ix2 k j)) + (∑ k : Fin 128, x2 (ix2 p k) * x4 (ix2 k j))) + x5 (ix1 j)) 0) * x6 (ix2 j q)) + x7 (ix1 q) := by
  unfold out4_8
  rw [View.canon_unit_zero hz2]
  simp only [View.ld_unit_zero (S := S2000x128) hz2, View.ld_unit_zero (S := S2000x1) hz2, View.ld_unit_zero (S := S128x128) hz2, View.ld_unit_zero (S := S128) hz1, View.ld_unit_zero (S := S128x64) hz2, View.ld_unit_zero (S := S64) hz1]
  exact pay4_apply x0 x1 x2 x3 x4 x5 x6 x7 p q

end Cert.KernelIdeal.Body
end
-- ==== Proof.Blocks.lean ====
/-
  Each of the five kernels, read as a whole-table function.

  Every kernel runs on a grid of 25 points over tables of 50000 rows: point `t` loads rows `2000 t … 2000 t + 1999` of
  each row-indexed operand (the weight and bias operands whole), computes its block of the layer, and writes it back to
  rows `2000 t … 2000 t + 1999` of the output.  The entry-by-entry arithmetic of a block is a separate module; here a
  block entry is matched with the layer's entry at the same global row, and, the 25 blocks tiling the output, the output
  table after the kernel is the layer of the operand tables as the kernel found them.  Everything is stated for
  arbitrary contents `V` at the kernel's entry.
-/
import proofs.«103222_j29746943492593_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«103222_j29746943492593_2_alg».proof.Proof.Spec
import proofs.«103222_j29746943492593_2_alg».proof.Proof.Body

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

open Cert.Sage
open Cert.KernelIdeal.Body

/-- A dense-layer block, entry by entry, is the dense layer of the tables at the block's rows. -/
theorem point_dense0 (x0 : Vec Ideal S2000x128 .f32) (A0 : SN.Idx → EReal) (A1 : SW.Idx → EReal) (A2 : SB.Idx → EReal) (tv : Nat)
    (y : S2000x128.Idx) (i : SN.Idx)
    (h0 : ∀ (x : S2000x128.Idx) (k : SN.Idx), (k 0).val = tv * 2000 + (x 0).val → (k 1).val = (x 1).val → x0 x = A0 k)
    (hi0 : (i 0).val = tv * 2000 + (y 0).val) (hi1 : (i 1).val = (y 1).val) :
    out0_3 (F := Ideal) x0 A1 A2 y = dense A0 A1 A2 i := by
  obtain ⟨p, q, rfl⟩ : ∃ (p : Fin 2000) (q : Fin 128), y = ix2 p q := ⟨y 0, y 1, eq_ix2 y⟩
  obtain ⟨r, q', rfl⟩ : ∃ (r : Fin 50000) (q' : Fin 128), i = ix2 r q' := ⟨i 0, i 1, eq_ix2 i⟩
  have hq : q' = q := Fin.ext hi1
  subst hq
  rw [proj0_apply]
  show _ = denseAt A0 A1 A2 r q'
  unfold denseAt
  refine congrArg (fun z => max (z + _) 0) (Finset.sum_congr rfl fun k _ => ?_)
  rw [h0 (ix2 p k) (ix2 r k) hi0 rfl]

/-- A dense-layer block, entry by entry, is the dense layer of the tables at the block's rows. -/
theorem point_dense1 (x0 : Vec Ideal S2000x128 .f32) (A0 : SN.Idx → EReal) (A1 : SW.Idx → EReal) (A2 : SB.Idx → EReal) (tv : Nat)
    (y : S2000x128.Idx) (i : SN.Idx)
    (h0 : ∀ (x : S2000x128.Idx) (k : SN.Idx), (k 0).val = tv * 2000 + (x 0).val → (k 1).val = (x 1).val → x0 x = A0 k)
    (hi0 : (i 0).val = tv * 2000 + (y 0).val) (hi1 : (i 1).val = (y 1).val) :
    out1_3 (F := Ideal) x0 A1 A2 y = dense A0 A1 A2 i := by
  obtain ⟨p, q, rfl⟩ : ∃ (p : Fin 2000) (q : Fin 128), y = ix2 p q := ⟨y 0, y 1, eq_ix2 y⟩
  obtain ⟨r, q', rfl⟩ : ∃ (r : Fin 50000) (q' : Fin 128), i = ix2 r q' := ⟨i 0, i 1, eq_ix2 i⟩
  have hq : q' = q := Fin.ext hi1
  subst hq
  rw [proj1_apply]
  show _ = denseAt A0 A1 A2 r q'
  unfold denseAt
  refine congrArg (fun z => max (z + _) 0) (Finset.sum_congr rfl fun k _ => ?_)
  rw [h0 (ix2 p k) (ix2 r k) hi0 rfl]

/-- A neighbour-mean block, entry by entry, is the neighbour-mean layer of the tables at the block's rows. -/
theorem point_mean2 (x0 : Vec Ideal S2000x128 .f32) (x1 : Vec Ideal S2000x1 .f32) (x2 : Vec Ideal S2000x128 .bf16)
    (A0 : SN.Idx → EReal) (A1 : SC.Idx → EReal) (A2 : SN.Idx → EReal) (A3 A4 : SW.Idx → EReal) (A5 : SB.Idx → EReal) (tv : Nat)
    (y : S2000x128.Idx) (i : SN.Idx)
    (h0 : ∀ (x : S2000x128.Idx) (k : SN.Idx), (k 0).val = tv * 2000 + (x 0).val → (k 1).val = (x 1).val → x0 x = A0 k)
    (h1 : ∀ (x : S2000x1.Idx) (k : SC.Idx), (k 0).val = tv * 2000 + (x 0).val → (k 1).val = (x 1).val → x1 x = A1 k)
    (h2 : ∀ (x : S2000x128.Idx) (k : SN.Idx), (k 0).val = tv * 2000 + (x 0).val → (k 1).val = (x 1).val → x2 x = A2 k)
    (hi0 : (i 0).val = tv * 2000 + (y 0).val) (hi1 : (i 1).val = (y 1).val) :
    out2_6 (F := Ideal) x0 x1 x2 A3 A4 A5 y = combine A0 A1 A2 A3 A4 A5 i := by
  obtain ⟨p, q, rfl⟩ : ∃ (p : Fin 2000) (q : Fin 128), y = ix2 p q := ⟨y 0, y 1, eq_ix2 y⟩
  obtain ⟨r, q', rfl⟩ : ∃ (r : Fin 50000) (q' : Fin 128), i = ix2 r q' := ⟨i 0, i 1, eq_ix2 i⟩
  have hq : q' = q := Fin.ext hi1
  subst hq
  rw [comb2_apply]
  show _ = combineAt A0 A1 A2 A3 A4 A5 r q'
  unfold combineAt
  have e1 : ∀ k : Fin 128, x0 (ix2 p k) = A0 (ix2 r k) := fun k => h0 (ix2 p k) (ix2 r k) hi0 rfl
  have e2 : x1 (ix2 p (0 : Fin 1)) = A1 (ix2 r (0 : Fin 1)) := h1 (ix2 p 0) (ix2 r 0) hi0 rfl
  have e3 : ∀ k : Fin 128, x2 (ix2 p k) = A2 (ix2 r k) := fun k => h2 (ix2 p k) (ix2 r k) hi0 rfl
  simp only [e1, e2, e3]

/-- A neighbour-mean block, entry by entry, is the neighbour-mean layer of the tables at the block's rows. -/
theorem point_mean3 (x0 : Vec Ideal S2000x128 .f32) (x1 : Vec Ideal S2000x1 .f32) (x2 : Vec Ideal S2000x128 .bf16)
    (A0 : SN.Idx → EReal) (A1 : SC.Idx → EReal) (A2 : SN.Idx → EReal) (A3 A4 : SW.Idx → EReal) (A5 : SB.Idx → EReal) (tv : Nat)
    (y : S2000x128.Idx) (i : SN.Idx)
    (h0 : ∀ (x : S2000x128.Idx) (k : SN.Idx), (k 0).val = tv * 2000 + (x 0).val → (k 1).val = (x 1).val → x0 x = A0 k)
    (h1 : ∀ (x : S2000x1.Idx) (k : SC.Idx), (k 0).val = tv * 2000 + (x 0).val → (k 1).val = (x 1).val → x1 x = A1 k)
    (h2 : ∀ (x : S2000x128.Idx) (k : SN.Idx), (k 0).val = tv * 2000 + (x 0).val → (k 1).val = (x 1).val → x2 x = A2 k)
    (hi0 : (i 0).val = tv * 2000 + (y 0).val) (hi1 : (i 1).val = (y 1).val) :
    out3_6 (F := Ideal) x0 x1 x2 A3 A4 A5 y = combine A0 A1 A2 A3 A4 A5 i := by
  obtain ⟨p, q, rfl⟩ : ∃ (p : Fin 2000) (q : Fin 128), y = ix2 p q := ⟨y 0, y 1, eq_ix2 y⟩
  obtain ⟨r, q', rfl⟩ : ∃ (r : Fin 50000) (q' : Fin 128), i = ix2 r q' := ⟨i 0, i 1, eq_ix2 i⟩
  have hq : q' = q := Fin.ext hi1
  subst hq
  rw [comb3_apply]
  show _ = combineAt A0 A1 A2 A3 A4 A5 r q'
  unfold combineAt
  have e1 : ∀ k : Fin 128, x0 (ix2 p k) = A0 (ix2 r k) := fun k => h0 (ix2 p k) (ix2 r k) hi0 rfl
  have e2 : x1 (ix2 p (0 : Fin 1)) = A1 (ix2 r (0 : Fin 1)) := h1 (ix2 p 0) (ix2 r 0) hi0 rfl
  have e3 : ∀ k : Fin 128, x2 (ix2 p k) = A2 (ix2 r k) := fun k => h2 (ix2 p k) (ix2 r k) hi0 rfl
  simp only [e1, e2, e3]

/-- An output block, entry by entry, is the head of the neighbour-mean layer of the tables at the block's rows. -/
theorem point_head4 (x0 : Vec Ideal S2000x128 .f32) (x1 : Vec Ideal S2000x1 .f32) (x2 : Vec Ideal S2000x128 .bf16)
    (A0 : SN.Idx → EReal) (A1 : SC.Idx → EReal) (A2 : SN.Idx → EReal) (A3 A4 : SW.Idx → EReal) (A5 : SB.Idx → EReal)
    (A6 : SWo.Idx → EReal) (A7 : SBo.Idx → EReal) (tv : Nat)
    (y : S2000x64.Idx) (i : SO.Idx)
    (h0 : ∀ (x : S2000x128.Idx) (k : SN.Idx), (k 0).val = tv * 2000 + (x 0).val → (k 1).val = (x 1).val → x0 x = A0 k)
    (h1 : ∀ (x : S2000x1.Idx) (k : SC.Idx), (k 0).val = tv * 2000 + (x 0).val → (k 1).val = (x 1).val → x1 x = A1 k)
    (h2 : ∀ (x : S2000x128.Idx) (k : SN.Idx), (k 0).val = tv * 2000 + (x 0).val → (k 1).val = (x 1).val → x2 x = A2 k)
    (hi0 : (i 0).val = tv * 2000 + (y 0).val) (hi1 : (i 1).val = (y 1).val) :
    out4_8 (F := Ideal) x0 x1 x2 A3 A4 A5 A6 A7 y = head (combine A0 A1 A2 A3 A4 A5) A6 A7 i := by
  obtain ⟨p, q, rfl⟩ : ∃ (p : Fin 2000) (q : Fin 64), y = ix2 p q := ⟨y 0, y 1, eq_ix2 y⟩
  obtain ⟨r, q', rfl⟩ : ∃ (r : Fin 50000) (q' : Fin 64), i = ix2 r q' := ⟨i 0, i 1, eq_ix2 i⟩
  have hq : q' = q := Fin.ext hi1
  subst hq
  rw [head4_apply]
  show _ = (∑ j : Fin 128, combineAt A0 A1 A2 A3 A4 A5 r j * A6 (ix2 j q')) + A7 (ix1 q')
  unfold combineAt
  have e1 : ∀ k : Fin 128, x0 (ix2 p k) = A0 (ix2 r k) := fun k => h0 (ix2 p k) (ix2 r k) hi0 rfl
  have e2 : x1 (ix2 p (0 : Fin 1)) = A1 (ix2 r (0 : Fin 1)) := h1 (ix2 p 0) (ix2 r 0) hi0 rfl
  have e3 : ∀ k : Fin 128, x2 (ix2 p k) = A2 (ix2 r k) := fun k => h2 (ix2 p k) (ix2 r k) hi0 rfl
  simp only [e1, e2, e3]

variable (V : (c : Dev nD) → (b : Ref sig .tc) → Buf (Elt Ideal) ((c : Thread nD τ).loc b))

/-! ## Kernel 0 -/

/-- Where each window's block sits at grid point `t`: the row windows at block row `t`, the weight and bias windows at the origin. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

/-- Point `t`'s block of this window is rows `2000 t … 2000 t + 1999` of its table. -/
theorem rows0_0 (c : Dev nD) (t : Fin cfg0.N) (x : S2000x128.Idx) (k : S50000x128.Idx)
    (hk0 : (k 0).val = t.val * 2000 + (x 0).val) (hk1 : (k 1).val = (x 1).val) :
    (iblk0 V c 0 t : Vec Ideal S2000x128 .f32) x = (V c main_arg0 : S50000x128.Idx → EReal) k := by
  obtain ⟨e0_0, e0_1, -⟩ := idx0 t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0_0, hk0]; omega
  | ⟨1, _⟩ => show win0_0.index t 1 * 128 + 1 * (x 1).val = (k 1).val; rw [e0_1, hk1]; omega

/-- This window's block is its whole table at every point. -/
theorem whole0_1 (c : Dev nD) (t : Fin cfg0.N) : (iblk0 V c 1 t : Vec Ideal S128x128 .f32) = (V c main_arg4 : S128x128.Idx → EReal) := by
  obtain ⟨-, -, e1_0, e1_1, -⟩ := idx0 t
  funext x
  unfold iblk0
  rw [View.read_apply]
  show V c main_arg4 _ = V c main_arg4 _
  congr 1
  funext a
  apply Fin.ext
  match a with
  | ⟨0, _⟩ => show win0_1.index t 0 * 128 + 1 * (x 0).val = (x 0).val; rw [e1_0]; omega
  | ⟨1, _⟩ => show win0_1.index t 1 * 128 + 1 * (x 1).val = (x 1).val; rw [e1_1]; omega

/-- This window's block is its whole table at every point. -/
theorem whole0_2 (c : Dev nD) (t : Fin cfg0.N) : (iblk0 V c 2 t : Vec Ideal S128 .f32) = (V c main_arg5 : S128.Idx → EReal) := by
  obtain ⟨-, -, -, -, e2_0, -⟩ := idx0 t
  funext x
  unfold iblk0
  rw [View.read_apply]
  show V c main_arg5 _ = V c main_arg5 _
  congr 1
  funext a
  apply Fin.ext
  match a with
  | ⟨0, _⟩ => show win0_2.index t 0 * 128 + 1 * (x 0).val = (x 0).val; rw [e2_0]; omega

/-- What point `t` writes back is block `t` of the layer's table. -/
theorem flushed0 (c : Dev nD) (t : Fin cfg0.N) :
    (dat0 V c).flushed 3 t = ((cfg0.win 3).blk t).view.read (Elt Ideal)
      (dense (V c main_arg0) (V c main_arg4) (V c main_arg5)) := by
  obtain ⟨-, -, -, -, -, e3_0, e3_1⟩ := idx0 t
  show (cfg0.win 3).cut (grid0.coords t) ((dat0 V c).after 3 t) = _
  rw [after0_3, whole0_1, whole0_2]
  funext j
  rw [View.read_apply]
  refine point_dense0 (iblk0 V c 0 t) _ _ _ t.val j _ (fun x k h0 h1 => rows0_0 V c t x k h0 h1) ?_ ?_
  · show win0_3.index t 0 * 2000 + 1 * (j 0).val = t.val * 2000 + (j 0).val; rw [e3_0]
    omega
  · show win0_3.index t 1 * 128 + 1 * (j 1).val = (j 1).val; rw [e3_1]; omega

/-- An index of the output table lies in point `t`'s block iff each coordinate lies in the block's range. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v0).slice (win0_3.rect t)).set ↔ _
  rw [View.set_slice_whole, Rect.mem_set_unit]
  exact Iff.rfl

/-- The twenty-five blocks tile the output table (row `r` lies in block `r / 2000`), so after the kernel the table IS the layer. -/
theorem final0 (c : Dev nD) : (dat0 V c).arrAt 3 cfg0.N = dense (V c main_arg0) (V c main_arg4) (V c main_arg5) :=
  (dat0 V c).arrAt_eq_of_cover 3 _ (fun t _ => flushed0 V c t) fun i => by
    have hi0 : (i 0).val < 50000 := (i 0).isLt
    have hi1 : (i 1).val < 128 := (i 1).isLt
    have hN : cfg0.N = 25 := N_0
    have hlt : (i 0).val / 2000 < cfg0.N := by rw [hN]; omega
    refine ⟨⟨(i 0).val / 2000, hlt⟩, flush0_3 _, ?_⟩
    rw [mem_blk0]
    obtain ⟨-, -, -, -, -, e3_0, e3_1⟩ := idx0 ⟨(i 0).val / 2000, hlt⟩
    intro a
    match a with
    | ⟨0, _⟩ =>
      show win0_3.index ⟨(i 0).val / 2000, hlt⟩ 0 * 2000 ≤ (i 0).val ∧ (i 0).val < win0_3.index ⟨(i 0).val / 2000, hlt⟩ 0 * 2000 + 2000
      rw [e3_0]
      show (i 0).val / 2000 * 2000 ≤ (i 0).val ∧ (i 0).val < (i 0).val / 2000 * 2000 + 2000
      omega
    | ⟨1, _⟩ =>
      show win0_3.index ⟨(i 0).val / 2000, hlt⟩ 1 * 128 ≤ (i 1).val ∧ (i 1).val < win0_3.index ⟨(i 0).val / 2000, hlt⟩ 1 * 128 + 128
      rw [e3_1]
      omega

/-! ## Kernel 1 -/

/-- Where each window's block sits at grid point `t`: the row windows at block row `t`, the weight and bias windows at the origin. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = t.val
    ∧ win1_3.index t (1 : Fin 2) = 0 :=
  (by decide +kernel : ∀ t : Fin grid1.N, _)

/-- Point `t`'s block of this window is rows `2000 t … 2000 t + 1999` of its table. -/
theorem rows1_0 (c : Dev nD) (t : Fin cfg1.N) (x : S2000x128.Idx) (k : S50000x128.Idx)
    (hk0 : (k 0).val = t.val * 2000 + (x 0).val) (hk1 : (k 1).val = (x 1).val) :
    (iblk1 V c 0 t : Vec Ideal S2000x128 .f32) x = (V c main_arg1 : S50000x128.Idx → EReal) k := by
  obtain ⟨e0_0, e0_1, -⟩ := idx1 t
  unfold iblk1
  rw [View.read_apply]
  show V c main_arg1 _ = V c main_arg1 _
  congr 1
  funext a
  apply Fin.ext
  match a with
  | ⟨0, _⟩ => show win1_0.index t 0 * 2000 + 1 * (x 0).val = (k 0).val; rw [e0_0, hk0]; omega
  | ⟨1, _⟩ => show win1_0.index t 1 * 128 + 1 * (x 1).val = (k 1).val; rw [e0_1, hk1]; omega

/-- This window's block is its whole table at every point. -/
theorem whole1_1 (c : Dev nD) (t : Fin cfg1.N) : (iblk1 V c 1 t : Vec Ideal S128x128 .f32) = (V c main_arg6 : S128x128.Idx → EReal) := by
  obtain ⟨-, -, e1_0, e1_1, -⟩ := idx1 t
  funext x
  unfold iblk1
  rw [View.read_apply]
  show V c main_arg6 _ = V c main_arg6 _
  congr 1
  funext a
  apply Fin.ext
  match a with
  | ⟨0, _⟩ => show win1_1.index t 0 * 128 + 1 * (x 0).val = (x 0).val; rw [e1_0]; omega
  | ⟨1, _⟩ => show win1_1.index t 1 * 128 + 1 * (x 1).val = (x 1).val; rw [e1_1]; omega

/-- This window's block is its whole table at every point. -/
theorem whole1_2 (c : Dev nD) (t : Fin cfg1.N) : (iblk1 V c 2 t : Vec Ideal S128 .f32) = (V c main_arg7 : S128.Idx → EReal) := by
  obtain ⟨-, -, -, -, e2_0, -⟩ := idx1 t
  funext x
  unfold iblk1
  rw [View.read_apply]
  show V c main_arg7 _ = V c main_arg7 _
  congr 1
  funext a
  apply Fin.ext
  match a with
  | ⟨0, _⟩ => show win1_2.index t 0 * 128 + 1 * (x 0).val = (x 0).val; rw [e2_0]; omega

/-- What point `t` writes back is block `t` of the layer's table. -/
theorem flushed1 (c : Dev nD) (t : Fin cfg1.N) :
    (dat1 V c).flushed 3 t = ((cfg1.win 3).blk t).view.read (Elt Ideal)
      (dense (V c main_arg1) (V c main_arg6) (V c main_arg7)) := by
  obtain ⟨-, -, -, -, -, e3_0, e3_1⟩ := idx1 t
  show (cfg1.win 3).cut (grid1.coords t) ((dat1 V c).after 3 t) = _
  rw [after1_3, whole1_1, whole1_2]
  funext j
  rw [View.read_apply]
  refine point_dense1 (iblk1 V c 0 t) _ _ _ t.val j _ (fun x k h0 h1 => rows1_0 V c t x k h0 h1) ?_ ?_
  · show win1_3.index t 0 * 2000 + 1 * (j 0).val = t.val * 2000 + (j 0).val; rw [e3_0]
    omega
  · show win1_3.index t 1 * 128 + 1 * (j 1).val = (j 1).val; rw [e3_1]; omega

/-- An index of the output table lies in point `t`'s block iff each coordinate lies in the block's range. -/
theorem mem_blk1 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v1).slice (win1_3.rect t)).set ↔ _
  rw [View.set_slice_whole, Rect.mem_set_unit]
  exact Iff.rfl

/-- The twenty-five blocks tile the output table (row `r` lies in block `r / 2000`), so after the kernel the table IS the layer. -/
theorem final1 (c : Dev nD) : (dat1 V c).arrAt 3 cfg1.N = dense (V c main_arg1) (V c main_arg6) (V c main_arg7) :=
  (dat1 V c).arrAt_eq_of_cover 3 _ (fun t _ => flushed1 V c t) fun i => by
    have hi0 : (i 0).val < 50000 := (i 0).isLt
    have hi1 : (i 1).val < 128 := (i 1).isLt
    have hN : cfg1.N = 25 := N_1
    have hlt : (i 0).val / 2000 < cfg1.N := by rw [hN]; omega
    refine ⟨⟨(i 0).val / 2000, hlt⟩, flush1_3 _, ?_⟩
    rw [mem_blk1]
    obtain ⟨-, -, -, -, -, e3_0, e3_1⟩ := idx1 ⟨(i 0).val / 2000, hlt⟩
    intro a
    match a with
    | ⟨0, _⟩ =>
      show win1_3.index ⟨(i 0).val / 2000, hlt⟩ 0 * 2000 ≤ (i 0).val ∧ (i 0).val < win1_3.index ⟨(i 0).val / 2000, hlt⟩ 0 * 2000 + 2000
      rw [e3_0]
      show (i 0).val / 2000 * 2000 ≤ (i 0).val ∧ (i 0).val < (i 0).val / 2000 * 2000 + 2000
      omega
    | ⟨1, _⟩ =>
      show win1_3.index ⟨(i 0).val / 2000, hlt⟩ 1 * 128 ≤ (i 1).val ∧ (i 1).val < win1_3.index ⟨(i 0).val / 2000, hlt⟩ 1 * 128 + 128
      rw [e3_1]
      omega

/-! ## Kernel 2 -/

/-- Where each window's block sits at grid point `t`: the row windows at block row `t`, the weight and bias windows at the origin. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 1) = 0
    ∧ win2_6.index t (0 : Fin 2) = t.val
    ∧ win2_6.index t (1 : Fin 2) = 0 :=
  (by decide +kernel : ∀ t : Fin grid2.N, _)

/-- Point `t`'s block of this window is rows `2000 t … 2000 t + 1999` of its table. -/
theorem rows2_0 (c : Dev nD) (t : Fin cfg2.N) (x : S2000x128.Idx) (k : S50000x128.Idx)
    (hk0 : (k 0).val = t.val * 2000 + (x 0).val) (hk1 : (k 1).val = (x 1).val) :
    (iblk2 V c 0 t : Vec Ideal S2000x128 .f32) x = (V c main_v38 : S50000x128.Idx → EReal) k := by
  obtain ⟨e0_0, e0_1, -⟩ := idx2 t
  unfold iblk2
  rw [View.read_apply]
  show V c main_v38 _ = V c main_v38 _
  congr 1
  funext a
  apply Fin.ext
  match a with
  | ⟨0, _⟩ => show win2_0.index t 0 * 2000 + 1 * (x 0).val = (k 0).val; rw [e0_0, hk0]; omega
  | ⟨1, _⟩ => show win2_0.index t 1 * 128 + 1 * (x 1).val = (k 1).val; rw [e0_1, hk1]; omega

/-- Point `t`'s block of this window is rows `2000 t … 2000 t + 1999` of its table. -/
theorem rows2_1 (c : Dev nD) (t : Fin cfg2.N) (x : S2000x1.Idx) (k : S50000x1.Idx)
    (hk0 : (k 0).val = t.val * 2000 + (x 0).val) (hk1 : (k 1).val = (x 1).val) :
    (iblk2 V c 1 t : Vec Ideal S2000x1 .f32) x = (V c main_v23 : S50000x1.Idx → EReal) k := by
  obtain ⟨-, -, e1_0, e1_1, -⟩ := idx2 t
  unfold iblk2
  rw [View.read_apply]
  show V c main_v23 _ = V c main_v23 _
  congr 1
  funext a
  apply Fin.ext
  match a with
  | ⟨0, _⟩ => show win2_1.index t 0 * 2000 + 1 * (x 0).val = (k 0).val; rw [e1_0, hk0]; omega
  | ⟨1, _⟩ => show win2_1.index t 1 * 1 + 1 * (x 1).val = (k 1).val; rw [e1_1, hk1]; omega

/-- Point `t`'s block of this window is rows `2000 t … 2000 t + 1999` of its table. -/
theorem rows2_2 (c : Dev nD) (t : Fin cfg2.N) (x : S2000x128.Idx) (k : S50000x128.Idx)
    (hk0 : (k 0).val = t.val * 2000 + (x 0).val) (hk1 : (k 1).val = (x 1).val) :
    (iblk2 V c 2 t : Vec Ideal S2000x128 .bf16) x = (V c main_v1 : S50000x128.Idx → EReal) k := by
  obtain ⟨-, -, -, -, e2_0, e2_1, -⟩ := idx2 t
  unfold iblk2
  rw [View.read_apply]
  show V c main_v1 _ = V c main_v1 _
  congr 1
  funext a
  apply Fin.ext
  match a with
  | ⟨0, _⟩ => show win2_2.index t 0 * 2000 + 1 * (x 0).val = (k 0).val; rw [e2_0, hk0]; omega
  | ⟨1, _⟩ => show win2_2.index t 1 * 128 + 1 * (x 1).val = (k 1).val; rw [e2_1, hk1]; omega

/-- This window's block is its whole table at every point. -/
theorem whole2_3 (c : Dev nD) (t : Fin cfg2.N) : (iblk2 V c 3 t : Vec Ideal S128x128 .f32) = (V c main_v40 : S128x128.Idx → EReal) := by
  obtain ⟨-, -, -, -, -, -, e3_0, e3_1, -⟩ := idx2 t
  funext x
  unfold iblk2
  rw [View.read_apply]
  show V c main_v40 _ = V c main_v40 _
  congr 1
  funext a
  apply Fin.ext
  match a with
  | ⟨0, _⟩ => show win2_3.index t 0 * 128 + 1 * (x 0).val = (x 0).val; rw [e3_0]; omega
  | ⟨1, _⟩ => show win2_3.index t 1 * 128 + 1 * (x 1).val = (x 1).val; rw [e3_1]; omega

/-- This window's block is its whole table at every point. -/
theorem whole2_4 (c : Dev nD) (t : Fin cfg2.N) : (iblk2 V c 4 t : Vec Ideal S128x128 .f32) = (V c main_v42 : S128x128.Idx → EReal) := by
  obtain ⟨-, -, -, -, -, -, -, -, e4_0, e4_1, -⟩ := idx2 t
  funext x
  unfold iblk2
  rw [View.read_apply]
  show V c main_v42 _ = V c main_v42 _
  congr 1
  funext a
  apply Fin.ext
  match a with
  | ⟨0, _⟩ => show win2_4.index t 0 * 128 + 1 * (x 0).val = (x 0).val; rw [e4_0]; omega
  | ⟨1, _⟩ => show win2_4.index t 1 * 128 + 1 * (x 1).val = (x 1).val; rw [e4_1]; omega

/-- This window's block is its whole table at every point. -/
theorem whole2_5 (c : Dev nD) (t : Fin cfg2.N) : (iblk2 V c 5 t : Vec Ideal S128 .f32) = (V c main_v44 : S128.Idx → EReal) := by
  obtain ⟨-, -, -, -, -, -, -, -, -, -, e5_0, -⟩ := idx2 t
  funext x
  unfold iblk2
  rw [View.read_apply]
  show V c main_v44 _ = V c main_v44 _
  congr 1
  funext a
  apply Fin.ext
  match a with
  | ⟨0, _⟩ => show win2_5.index t 0 * 128 + 1 * (x 0).val = (x 0).val; rw [e5_0]; omega

/-- What point `t` writes back is block `t` of the layer's table. -/
theorem flushed2 (c : Dev nD) (t : Fin cfg2.N) :
    (dat2 V c).flushed 6 t = ((cfg2.win 6).blk t).view.read (Elt Ideal)
      (combine (V c main_v38) (V c main_v23) (V c main_v1) (V c main_v40) (V c main_v42) (V c main_v44)) := by
  obtain ⟨-, -, -, -, -, -, -, -, -, -, -, e6_0, e6_1⟩ := idx2 t
  show (cfg2.win 6).cut (grid2.coords t) ((dat2 V c).after 6 t) = _
  rw [after2_6, whole2_3, whole2_4, whole2_5]
  funext j
  rw [View.read_apply]
  refine point_mean2 (iblk2 V c 0 t) (iblk2 V c 1 t) (iblk2 V c 2 t) _ _ _ _ _ _ t.val j _ (fun x k h0 h1 => rows2_0 V c t x k h0 h1) (fun x k h0 h1 => rows2_1 V c t x k h0 h1) (fun x k h0 h1 => rows2_2 V c t x k h0 h1) ?_ ?_
  · show win2_6.index t 0 * 2000 + 1 * (j 0).val = t.val * 2000 + (j 0).val; rw [e6_0]
    omega
  · show win2_6.index t 1 * 128 + 1 * (j 1).val = (j 1).val; rw [e6_1]; omega

/-- An index of the output table lies in point `t`'s block iff each coordinate lies in the block's range. -/
theorem mem_blk2 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v45).slice (win2_6.rect t)).set ↔ _
  rw [View.set_slice_whole, Rect.mem_set_unit]
  exact Iff.rfl

/-- The twenty-five blocks tile the output table (row `r` lies in block `r / 2000`), so after the kernel the table IS the layer. -/
theorem final2 (c : Dev nD) : (dat2 V c).arrAt 6 cfg2.N = combine (V c main_v38) (V c main_v23) (V c main_v1) (V c main_v40) (V c main_v42) (V c main_v44) :=
  (dat2 V c).arrAt_eq_of_cover 6 _ (fun t _ => flushed2 V c t) fun i => by
    have hi0 : (i 0).val < 50000 := (i 0).isLt
    have hi1 : (i 1).val < 128 := (i 1).isLt
    have hN : cfg2.N = 25 := N_2
    have hlt : (i 0).val / 2000 < cfg2.N := by rw [hN]; omega
    refine ⟨⟨(i 0).val / 2000, hlt⟩, flush2_6 _, ?_⟩
    rw [mem_blk2]
    obtain ⟨-, -, -, -, -, -, -, -, -, -, -, e6_0, e6_1⟩ := idx2 ⟨(i 0).val / 2000, hlt⟩
    intro a
    match a with
    | ⟨0, _⟩ =>
      show win2_6.index ⟨(i 0).val / 2000, hlt⟩ 0 * 2000 ≤ (i 0).val ∧ (i 0).val < win2_6.index ⟨(i 0).val / 2000, hlt⟩ 0 * 2000 + 2000
      rw [e6_0]
      show (i 0).val / 2000 * 2000 ≤ (i 0).val ∧ (i 0).val < (i 0).val / 2000 * 2000 + 2000
      omega
    | ⟨1, _⟩ =>
      show win2_6.index ⟨(i 0).val / 2000, hlt⟩ 1 * 128 ≤ (i 1).val ∧ (i 1).val < win2_6.index ⟨(i 0).val / 2000, hlt⟩ 1 * 128 + 128
      rw [e6_1]
      omega

/-! ## Kernel 3 -/

/-- Where each window's block sits at grid point `t`: the row windows at block row `t`, the weight and bias windows at the origin. -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 1) = 0
    ∧ win3_6.index t (0 : Fin 2) = t.val
    ∧ win3_6.index t (1 : Fin 2) = 0 :=
  (by decide +kernel : ∀ t : Fin grid3.N, _)

/-- Point `t`'s block of this window is rows `2000 t … 2000 t + 1999` of its table. -/
theorem rows3_0 (c : Dev nD) (t : Fin cfg3.N) (x : S2000x128.Idx) (k : S50000x128.Idx)
    (hk0 : (k 0).val = t.val * 2000 + (x 0).val) (hk1 : (k 1).val = (x 1).val) :
    (iblk3 V c 0 t : Vec Ideal S2000x128 .f32) x = (V c main_v60 : S50000x128.Idx → EReal) k := by
  obtain ⟨e0_0, e0_1, -⟩ := idx3 t
  unfold iblk3
  rw [View.read_apply]
  show V c main_v60 _ = V c main_v60 _
  congr 1
  funext a
  apply Fin.ext
  match a with
  | ⟨0, _⟩ => show win3_0.index t 0 * 2000 + 1 * (x 0).val = (k 0).val; rw [e0_0, hk0]; omega
  | ⟨1, _⟩ => show win3_0.index t 1 * 128 + 1 * (x 1).val = (k 1).val; rw [e0_1, hk1]; omega

/-- Point `t`'s block of this window is rows `2000 t … 2000 t + 1999` of its table. -/
theorem rows3_1 (c : Dev nD) (t : Fin cfg3.N) (x : S2000x1.Idx) (k : S50000x1.Idx)
    (hk0 : (k 0).val = t.val * 2000 + (x 0).val) (hk1 : (k 1).val = (x 1).val) :
    (iblk3 V c 1 t : Vec Ideal S2000x1 .f32) x = (V c main_v12 : S50000x1.Idx → EReal) k := by
  obtain ⟨-, -, e1_0, e1_1, -⟩ := idx3 t
  unfold iblk3
  rw [View.read_apply]
  show V c main_v12 _ = V c main_v12 _
  congr 1
  funext a
  apply Fin.ext
  match a with
  | ⟨0, _⟩ => show win3_1.index t 0 * 2000 + 1 * (x 0).val = (k 0).val; rw [e1_0, hk0]; omega
  | ⟨1, _⟩ => show win3_1.index t 1 * 1 + 1 * (x 1).val = (k 1).val; rw [e1_1, hk1]; omega

/-- Point `t`'s block of this window is rows `2000 t … 2000 t + 1999` of its table. -/
theorem rows3_2 (c : Dev nD) (t : Fin cfg3.N) (x : S2000x128.Idx) (k : S50000x128.Idx)
    (hk0 : (k 0).val = t.val * 2000 + (x 0).val) (hk1 : (k 1).val = (x 1).val) :
    (iblk3 V c 2 t : Vec Ideal S2000x128 .bf16) x = (V c main_v0 : S50000x128.Idx → EReal) k := by
  obtain ⟨-, -, -, -, e2_0, e2_1, -⟩ := idx3 t
  unfold iblk3
  rw [View.read_apply]
  show V c main_v0 _ = V c main_v0 _
  congr 1
  funext a
  apply Fin.ext
  match a with
  | ⟨0, _⟩ => show win3_2.index t 0 * 2000 + 1 * (x 0).val = (k 0).val; rw [e2_0, hk0]; omega
  | ⟨1, _⟩ => show win3_2.index t 1 * 128 + 1 * (x 1).val = (k 1).val; rw [e2_1, hk1]; omega

/-- This window's block is its whole table at every point. -/
theorem whole3_3 (c : Dev nD) (t : Fin cfg3.N) : (iblk3 V c 3 t : Vec Ideal S128x128 .f32) = (V c main_v62 : S128x128.Idx → EReal) := by
  obtain ⟨-, -, -, -, -, -, e3_0, e3_1, -⟩ := idx3 t
  funext x
  unfold iblk3
  rw [View.read_apply]
  show V c main_v62 _ = V c main_v62 _
  congr 1
  funext a
  apply Fin.ext
  match a with
  | ⟨0, _⟩ => show win3_3.index t 0 * 128 + 1 * (x 0).val = (x 0).val; rw [e3_0]; omega
  | ⟨1, _⟩ => show win3_3.index t 1 * 128 + 1 * (x 1).val = (x 1).val; rw [e3_1]; omega

/-- This window's block is its whole table at every point. -/
theorem whole3_4 (c : Dev nD) (t : Fin cfg3.N) : (iblk3 V c 4 t : Vec Ideal S128x128 .f32) = (V c main_v64 : S128x128.Idx → EReal) := by
  obtain ⟨-, -, -, -, -, -, -, -, e4_0, e4_1, -⟩ := idx3 t
  funext x
  unfold iblk3
  rw [View.read_apply]
  show V c main_v64 _ = V c main_v64 _
  congr 1
  funext a
  apply Fin.ext
  match a with
  | ⟨0, _⟩ => show win3_4.index t 0 * 128 + 1 * (x 0).val = (x 0).val; rw [e4_0]; omega
  | ⟨1, _⟩ => show win3_4.index t 1 * 128 + 1 * (x 1).val = (x 1).val; rw [e4_1]; omega

/-- This window's block is its whole table at every point. -/
theorem whole3_5 (c : Dev nD) (t : Fin cfg3.N) : (iblk3 V c 5 t : Vec Ideal S128 .f32) = (V c main_v66 : S128.Idx → EReal) := by
  obtain ⟨-, -, -, -, -, -, -, -, -, -, e5_0, -⟩ := idx3 t
  funext x
  unfold iblk3
  rw [View.read_apply]
  show V c main_v66 _ = V c main_v66 _
  congr 1
  funext a
  apply Fin.ext
  match a with
  | ⟨0, _⟩ => show win3_5.index t 0 * 128 + 1 * (x 0).val = (x 0).val; rw [e5_0]; omega

/-- What point `t` writes back is block `t` of the layer's table. -/
theorem flushed3 (c : Dev nD) (t : Fin cfg3.N) :
    (dat3 V c).flushed 6 t = ((cfg3.win 6).blk t).view.read (Elt Ideal)
      (combine (V c main_v60) (V c main_v12) (V c main_v0) (V c main_v62) (V c main_v64) (V c main_v66)) := by
  obtain ⟨-, -, -, -, -, -, -, -, -, -, -, e6_0, e6_1⟩ := idx3 t
  show (cfg3.win 6).cut (grid3.coords t) ((dat3 V c).after 6 t) = _
  rw [after3_6, whole3_3, whole3_4, whole3_5]
  funext j
  rw [View.read_apply]
  refine point_mean3 (iblk3 V c 0 t) (iblk3 V c 1 t) (iblk3 V c 2 t) _ _ _ _ _ _ t.val j _ (fun x k h0 h1 => rows3_0 V c t x k h0 h1) (fun x k h0 h1 => rows3_1 V c t x k h0 h1) (fun x k h0 h1 => rows3_2 V c t x k h0 h1) ?_ ?_
  · show win3_6.index t 0 * 2000 + 1 * (j 0).val = t.val * 2000 + (j 0).val; rw [e6_0]
    omega
  · show win3_6.index t 1 * 128 + 1 * (j 1).val = (j 1).val; rw [e6_1]; omega

/-- An index of the output table lies in point `t`'s block iff each coordinate lies in the block's range. -/
theorem mem_blk3 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v67).slice (win3_6.rect t)).set ↔ _
  rw [View.set_slice_whole, Rect.mem_set_unit]
  exact Iff.rfl

/-- The twenty-five blocks tile the output table (row `r` lies in block `r / 2000`), so after the kernel the table IS the layer. -/
theorem final3 (c : Dev nD) : (dat3 V c).arrAt 6 cfg3.N = combine (V c main_v60) (V c main_v12) (V c main_v0) (V c main_v62) (V c main_v64) (V c main_v66) :=
  (dat3 V c).arrAt_eq_of_cover 6 _ (fun t _ => flushed3 V c t) fun i => by
    have hi0 : (i 0).val < 50000 := (i 0).isLt
    have hi1 : (i 1).val < 128 := (i 1).isLt
    have hN : cfg3.N = 25 := N_3
    have hlt : (i 0).val / 2000 < cfg3.N := by rw [hN]; omega
    refine ⟨⟨(i 0).val / 2000, hlt⟩, flush3_6 _, ?_⟩
    rw [mem_blk3]
    obtain ⟨-, -, -, -, -, -, -, -, -, -, -, e6_0, e6_1⟩ := idx3 ⟨(i 0).val / 2000, hlt⟩
    intro a
    match a with
    | ⟨0, _⟩ =>
      show win3_6.index ⟨(i 0).val / 2000, hlt⟩ 0 * 2000 ≤ (i 0).val ∧ (i 0).val < win3_6.index ⟨(i 0).val / 2000, hlt⟩ 0 * 2000 + 2000
      rw [e6_0]
      show (i 0).val / 2000 * 2000 ≤ (i 0).val ∧ (i 0).val < (i 0).val / 2000 * 2000 + 2000
      omega
    | ⟨1, _⟩ =>
      show win3_6.index ⟨(i 0).val / 2000, hlt⟩ 1 * 128 ≤ (i 1).val ∧ (i 1).val < win3_6.index ⟨(i 0).val / 2000, hlt⟩ 1 * 128 + 128
      rw [e6_1]
      omega

/-! ## Kernel 4 -/

/-- Where each window's block sits at grid point `t`: the row windows at block row `t`, the weight and bias windows at the origin. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 1) = 0
    ∧ win4_6.index t (0 : Fin 2) = 0
    ∧ win4_6.index t (1 : Fin 2) = 0
    ∧ win4_7.index t (0 : Fin 1) = 0
    ∧ win4_8.index t (0 : Fin 2) = t.val
    ∧ win4_8.index t (1 : Fin 2) = 0 :=
  (by decide +kernel : ∀ t : Fin grid4.N, _)

/-- Point `t`'s block of this window is rows `2000 t … 2000 t + 1999` of its table. -/
theorem rows4_0 (c : Dev nD) (t : Fin cfg4.N) (x : S2000x128.Idx) (k : S50000x128.Idx)
    (hk0 : (k 0).val = t.val * 2000 + (x 0).val) (hk1 : (k 1).val = (x 1).val) :
    (iblk4 V c 0 t : Vec Ideal S2000x128 .f32) x = (V c main_v82 : S50000x128.Idx → EReal) k := by
  obtain ⟨e0_0, e0_1, -⟩ := idx4 t
  unfold iblk4
  rw [View.read_apply]
  show V c main_v82 _ = V c main_v82 _
  congr 1
  funext a
  apply Fin.ext
  match a with
  | ⟨0, _⟩ => show win4_0.index t 0 * 2000 + 1 * (x 0).val = (k 0).val; rw [e0_0, hk0]; omega
  | ⟨1, _⟩ => show win4_0.index t 1 * 128 + 1 * (x 1).val = (k 1).val; rw [e0_1, hk1]; omega

/-- Point `t`'s block of this window is rows `2000 t … 2000 t + 1999` of its table. -/
theorem rows4_1 (c : Dev nD) (t : Fin cfg4.N) (x : S2000x1.Idx) (k : S50000x1.Idx)
    (hk0 : (k 0).val = t.val * 2000 + (x 0).val) (hk1 : (k 1).val = (x 1).val) :
    (iblk4 V c 1 t : Vec Ideal S2000x1 .f32) x = (V c main_v12 : S50000x1.Idx → EReal) k := by
  obtain ⟨-, -, e1_0, e1_1, -⟩ := idx4 t
  unfold iblk4
  rw [View.read_apply]
  show V c main_v12 _ = V c main_v12 _
  congr 1
  funext a
  apply Fin.ext
  match a with
  | ⟨0, _⟩ => show win4_1.index t 0 * 2000 + 1 * (x 0).val = (k 0).val; rw [e1_0, hk0]; omega
  | ⟨1, _⟩ => show win4_1.index t 1 * 1 + 1 * (x 1).val = (k 1).val; rw [e1_1, hk1]; omega

/-- Point `t`'s block of this window is rows `2000 t … 2000 t + 1999` of its table. -/
theorem rows4_2 (c : Dev nD) (t : Fin cfg4.N) (x : S2000x128.Idx) (k : S50000x128.Idx)
    (hk0 : (k 0).val = t.val * 2000 + (x 0).val) (hk1 : (k 1).val = (x 1).val) :
    (iblk4 V c 2 t : Vec Ideal S2000x128 .bf16) x = (V c main_v67 : S50000x128.Idx → EReal) k := by
  obtain ⟨-, -, -, -, e2_0, e2_1, -⟩ := idx4 t
  unfold iblk4
  rw [View.read_apply]
  show V c main_v67 _ = V c main_v67 _
  congr 1
  funext a
  apply Fin.ext
  match a with
  | ⟨0, _⟩ => show win4_2.index t 0 * 2000 + 1 * (x 0).val = (k 0).val; rw [e2_0, hk0]; omega
  | ⟨1, _⟩ => show win4_2.index t 1 * 128 + 1 * (x 1).val = (k 1).val; rw [e2_1, hk1]; omega

/-- This window's block is its whole table at every point. -/
theorem whole4_3 (c : Dev nD) (t : Fin cfg4.N) : (iblk4 V c 3 t : Vec Ideal S128x128 .f32) = (V c main_v84 : S128x128.Idx → EReal) := by
  obtain ⟨-, -, -, -, -, -, e3_0, e3_1, -⟩ := idx4 t
  funext x
  unfold iblk4
  rw [View.read_apply]
  show V c main_v84 _ = V c main_v84 _
  congr 1
  funext a
  apply Fin.ext
  match a with
  | ⟨0, _⟩ => show win4_3.index t 0 * 128 + 1 * (x 0).val = (x 0).val; rw [e3_0]; omega
  | ⟨1, _⟩ => show win4_3.index t 1 * 128 + 1 * (x 1).val = (x 1).val; rw [e3_1]; omega

/-- This window's block is its whole table at every point. -/
theorem whole4_4 (c : Dev nD) (t : Fin cfg4.N) : (iblk4 V c 4 t : Vec Ideal S128x128 .f32) = (V c main_v86 : S128x128.Idx → EReal) := by
  obtain ⟨-, -, -, -, -, -, -, -, e4_0, e4_1, -⟩ := idx4 t
  funext x
  unfold iblk4
  rw [View.read_apply]
  show V c main_v86 _ = V c main_v86 _
  congr 1
  funext a
  apply Fin.ext
  match a with
  | ⟨0, _⟩ => show win4_4.index t 0 * 128 + 1 * (x 0).val = (x 0).val; rw [e4_0]; omega
  | ⟨1, _⟩ => show win4_4.index t 1 * 128 + 1 * (x 1).val = (x 1).val; rw [e4_1]; omega

/-- This window's block is its whole table at every point. -/
theorem whole4_5 (c : Dev nD) (t : Fin cfg4.N) : (iblk4 V c 5 t : Vec Ideal S128 .f32) = (V c main_v88 : S128.Idx → EReal) := by
  obtain ⟨-, -, -, -, -, -, -, -, -, -, e5_0, -⟩ := idx4 t
  funext x
  unfold iblk4
  rw [View.read_apply]
  show V c main_v88 _ = V c main_v88 _
  congr 1
  funext a
  apply Fin.ext
  match a with
  | ⟨0, _⟩ => show win4_5.index t 0 * 128 + 1 * (x 0).val = (x 0).val; rw [e5_0]; omega

/-- This window's block is its whole table at every point. -/
theorem whole4_6 (c : Dev nD) (t : Fin cfg4.N) : (iblk4 V c 6 t : Vec Ideal S128x64 .f32) = (V c main_arg14 : S128x64.Idx → EReal) := by
  obtain ⟨-, -, -, -, -, -, -, -, -, -, -, e6_0, e6_1, -⟩ := idx4 t
  funext x
  unfold iblk4
  rw [View.read_apply]
  show V c main_arg14 _ = V c main_arg14 _
  congr 1
  funext a
  apply Fin.ext
  match a with
  | ⟨0, _⟩ => show win4_6.index t 0 * 128 + 1 * (x 0).val = (x 0).val; rw [e6_0]; omega
  | ⟨1, _⟩ => show win4_6.index t 1 * 64 + 1 * (x 1).val = (x 1).val; rw [e6_1]; omega

/-- This window's block is its whole table at every point. -/
theorem whole4_7 (c : Dev nD) (t : Fin cfg4.N) : (iblk4 V c 7 t : Vec Ideal S64 .f32) = (V c main_arg15 : S64.Idx → EReal) := by
  obtain ⟨-, -, -, -, -, -, -, -, -, -, -, -, -, e7_0, -⟩ := idx4 t
  funext x
  unfold iblk4
  rw [View.read_apply]
  show V c main_arg15 _ = V c main_arg15 _
  congr 1
  funext a
  apply Fin.ext
  match a with
  | ⟨0, _⟩ => show win4_7.index t 0 * 64 + 1 * (x 0).val = (x 0).val; rw [e7_0]; omega

/-- What point `t` writes back is block `t` of the layer's table. -/
theorem flushed4 (c : Dev nD) (t : Fin cfg4.N) :
    (dat4 V c).flushed 8 t = ((cfg4.win 8).blk t).view.read (Elt Ideal)
      (head (combine (V c main_v82) (V c main_v12) (V c main_v67) (V c main_v84) (V c main_v86) (V c main_v88)) (V c main_arg14) (V c main_arg15)) := by
  obtain ⟨-, -, -, -, -, -, -, -, -, -, -, -, -, -, e8_0, e8_1⟩ := idx4 t
  show (cfg4.win 8).cut (grid4.coords t) ((dat4 V c).after 8 t) = _
  rw [after4_8, whole4_3, whole4_4, whole4_5, whole4_6, whole4_7]
  funext j
  rw [View.read_apply]
  refine point_head4 (iblk4 V c 0 t) (iblk4 V c 1 t) (iblk4 V c 2 t) _ _ _ _ _ _ _ _ t.val j _ (fun x k h0 h1 => rows4_0 V c t x k h0 h1) (fun x k h0 h1 => rows4_1 V c t x k h0 h1) (fun x k h0 h1 => rows4_2 V c t x k h0 h1) ?_ ?_
  · show win4_8.index t 0 * 2000 + 1 * (j 0).val = t.val * 2000 + (j 0).val; rw [e8_0]
    omega
  · show win4_8.index t 1 * 64 + 1 * (j 1).val = (j 1).val; rw [e8_1]; omega

/-- An index of the output table lies in point `t`'s block iff each coordinate lies in the block's range. -/
theorem mem_blk4 (t : Fin cfg4.N) (i : S50000x64.Idx) :
    i ∈ ((cfg4.win 8).blk t).view.set ↔ ∀ a : Fin 2, win4_8.index t a * S2000x64.size a ≤ (i a).val ∧ (i a).val < win4_8.index t a * S2000x64.size a + S2000x64.size a := by
  show i ∈ ((View.whole main_v89).slice (win4_8.rect t)).set ↔ _
  rw [View.set_slice_whole, Rect.mem_set_unit]
  exact Iff.rfl

/-- The twenty-five blocks tile the output table (row `r` lies in block `r / 2000`), so after the kernel the table IS the layer. -/
theorem final4 (c : Dev nD) : (dat4 V c).arrAt 8 cfg4.N = head (combine (V c main_v82) (V c main_v12) (V c main_v67) (V c main_v84) (V c main_v86) (V c main_v88)) (V c main_arg14) (V c main_arg15) :=
  (dat4 V c).arrAt_eq_of_cover 8 _ (fun t _ => flushed4 V c t) fun i => by
    have hi0 : (i 0).val < 50000 := (i 0).isLt
    have hi1 : (i 1).val < 64 := (i 1).isLt
    have hN : cfg4.N = 25 := N_4
    have hlt : (i 0).val / 2000 < cfg4.N := by rw [hN]; omega
    refine ⟨⟨(i 0).val / 2000, hlt⟩, flush4_8 _, ?_⟩
    rw [mem_blk4]
    obtain ⟨-, -, -, -, -, -, -, -, -, -, -, -, -, -, e8_0, e8_1⟩ := idx4 ⟨(i 0).val / 2000, hlt⟩
    intro a
    match a with
    | ⟨0, _⟩ =>
      show win4_8.index ⟨(i 0).val / 2000, hlt⟩ 0 * 2000 ≤ (i 0).val ∧ (i 0).val < win4_8.index ⟨(i 0).val / 2000, hlt⟩ 0 * 2000 + 2000
      rw [e8_0]
      show (i 0).val / 2000 * 2000 ≤ (i 0).val ∧ (i 0).val < (i 0).val / 2000 * 2000 + 2000
      omega
    | ⟨1, _⟩ =>
      show win4_8.index ⟨(i 0).val / 2000, hlt⟩ 1 * 64 ≤ (i 1).val ∧ (i 1).val < win4_8.index ⟨(i 0).val / 2000, hlt⟩ 1 * 64 + 64
      rw [e8_1]
      omega

end Cert.KernelIdeal.Blocks

end
-- ==== Proof.RefValue.lean ====
/-
  The reference program, operation by operation, is the network of the specification.

  Each of the reference's two dense layers is `dense`; each of its three neighbour-mean layers is `combine` of the
  summed neighbour features, the reciprocal of the clamped neighbour count, the rows' own features, two weight matrices
  and a bias; its last operation is `head`.  The summed neighbour features and the neighbour counts (the results of the
  scatter operations) and the weight slices enter as they are: nothing here looks inside them.
-/
import proofs.«103222_j29746943492593_2_alg».proof.Proof.Gen.ReferenceIdeal.Read
import proofs.«103222_j29746943492593_2_alg».proof.Proof.Spec
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Read Cert.Sage Idealize.ShloMosaic Idealize.ShloMosaic.ValueIdx

variable (x0 x1 : (⟨S50000x128, .f32⟩ : BufTy).Contents (Elt Ideal)) (x2 x3 : (⟨S2x1600000, .i32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 x9 : (⟨S2x128x128, .f32⟩ : BufTy).Contents (Elt Ideal)) (x10 : (⟨S2x128, .f32⟩ : BufTy).Contents (Elt Ideal))
  (x11 x12 : (⟨S2x128x128, .f32⟩ : BufTy).Contents (Elt Ideal)) (x13 : (⟨S2x128, .f32⟩ : BufTy).Contents (Elt Ideal))
  (x14 : (⟨S128x64, .f32⟩ : BufTy).Contents (Elt Ideal)) (x15 : (⟨S64, .f32⟩ : BufTy).Contents (Elt Ideal))

/-! ### Dense layers -/

/-- The first dense layer's matrix product, entry by entry. -/
theorem v0_at (r : Fin 50000) (q : Fin 128) :
    val_main_v0 (F := Ideal) x0 x4 (ix2 r q) = ∑ k : Fin 128, x0 (ix2 r k) * x4 (ix2 k q) := by
  rw [val_main_v0_apply]
  refine Finset.sum_congr rfl fun k _ => ?_
  rw [show lidx_main_v0 (ix2 r q) k = ix2 r k from funext fun a => Fin.ext (by match a with | ⟨0, _⟩ => rfl | ⟨1, _⟩ => rfl),
    show ridx_main_v0 (ix2 r q) k = ix2 k q from funext fun a => Fin.ext (by match a with | ⟨0, _⟩ => rfl | ⟨1, _⟩ => rfl)]

/-- The first dense layer's bias row repeated down the table. -/
theorem v2_at (r : Fin 50000) (q : Fin 128) : val_main_v2 (F := Ideal) x5 (ix2 r q) = x5 (ix1 q) := by
  rw [val_main_v2_apply, val_main_v1_apply]
  exact congrArg x5 (funext fun a => Fin.ext (by match a with | ⟨0, _⟩ => rfl))

/-- The rectifier's table of zeros. -/
theorem call0_at (i : S50000x128.Idx) : val_main_call0_v0 (F := Ideal) i = 0 := by
  rw [val_main_call0_v0_apply, val_main_call0_cst_apply, Ideal.ofBits_def, Ideal.ofBits_zero_f32]

/-- The first dense layer with its rectifier is `dense`. -/
theorem v4_eq : val_main_v4 (F := Ideal) x0 x4 x5 = dense x0 x4 x5 := by
  funext i
  obtain ⟨r, q, rfl⟩ : ∃ (r : Fin 50000) (q : Fin 128), i = ix2 r q := ⟨i 0, i 1, eq_ix2 i⟩
  rw [val_main_v4_apply, val_main_v3_apply, Ideal.maximumf_def, Ideal.addf_def, v0_at, v2_at, call0_at]
  rfl

/-- The second dense layer's matrix product, entry by entry. -/
theorem v5_at (r : Fin 50000) (q : Fin 128) :
    val_main_v5 (F := Ideal) x1 x6 (ix2 r q) = ∑ k : Fin 128, x1 (ix2 r k) * x6 (ix2 k q) := by
  rw [val_main_v5_apply]
  refine Finset.sum_congr rfl fun k _ => ?_
  rw [show lidx_main_v5 (ix2 r q) k = ix2 r k from funext fun a => Fin.ext (by match a with | ⟨0, _⟩ => rfl | ⟨1, _⟩ => rfl),
    show ridx_main_v5 (ix2 r q) k = ix2 k q from funext fun a => Fin.ext (by match a with | ⟨0, _⟩ => rfl | ⟨1, _⟩ => rfl)]

/-- The second dense layer's bias row repeated down the table. -/
theorem v7_at (r : Fin 50000) (q : Fin 128) : val_main_v7 (F := Ideal) x7 (ix2 r q) = x7 (ix1 q) := by
  rw [val_main_v7_apply, val_main_v6_apply]
  exact congrArg x7 (funext fun a => Fin.ext (by match a with | ⟨0, _⟩ => rfl))

/-- The rectifier's table of zeros. -/
theorem call1_at (i : S50000x128.Idx) : val_main_call1_v0 (F := Ideal) i = 0 := by
  rw [val_main_call1_v0_apply, val_main_call1_cst_apply, Ideal.ofBits_def, Ideal.ofBits_zero_f32]

/-- The second dense layer with its rectifier is `dense`. -/
theorem v9_eq : val_main_v9 (F := Ideal) x1 x6 x7 = dense x1 x6 x7 := by
  funext i
  obtain ⟨r, q, rfl⟩ : ∃ (r : Fin 50000) (q : Fin 128), i = ix2 r q := ⟨i 0, i 1, eq_ix2 i⟩
  rw [val_main_v9_apply, val_main_v8_apply, Ideal.maximumf_def, Ideal.addf_def, v5_at, v7_at, call1_at]
  rfl

/-! ### First layer, from the first node table's neighbours into the second node table's rows -/

/-- The divisor table read at a row: the row's neighbour count clamped below at one, the same in every column. -/
theorem v31_at (r : Fin 50000) (k : Fin 128) :
    val_main_v31 (F := Ideal) x2 (ix2 r k) = max (val_main_v27 (F := Ideal) x2 (ix1 r)) 1 := by
  rw [val_main_v31_apply, val_main_v30_apply, val_main_v29_apply, val_main_v28_apply, val_main_cst_3_apply,
    Ideal.maximumf_def, Ideal.ofBits_def, Cert.Sage.ofBits_one_f32]
  rw [show idx_main_v30 (idx_main_v31 (ix2 r k)) = ix1 r from funext fun a => Fin.ext (by match a with | ⟨0, _⟩ => rfl)]

/-- The neighbour mean at an entry: the summed neighbour feature divided by the clamped count of the row. -/
theorem v32_at (r : Fin 50000) (k : Fin 128) :
    val_main_v32 (F := Ideal) x0 x2 x4 x5 (ix2 r k) = Ideal.div (val_main_v23 (F := Ideal) x0 x2 x4 x5 (ix2 r k)) (max (val_main_v27 (F := Ideal) x2 (ix1 r)) 1) := by
  rw [val_main_v32_apply, Ideal.hostDivf_def, v31_at]

/-- The product of the neighbour means with the first weight matrix, entry by entry. -/
theorem v35_at (r : Fin 50000) (q : Fin 128) :
    val_main_v35 (F := Ideal) x0 x2 x4 x5 x8 (ix2 r q)
      = ∑ k : Fin 128, Ideal.div (val_main_v23 (F := Ideal) x0 x2 x4 x5 (ix2 r k)) (max (val_main_v27 (F := Ideal) x2 (ix1 r)) 1) * val_main_v34 (F := Ideal) x8 (ix2 k q) := by
  rw [val_main_v35_apply]
  refine Finset.sum_congr rfl fun k _ => ?_
  rw [show lidx_main_v35 (ix2 r q) k = ix2 r k from funext fun a => Fin.ext (by match a with | ⟨0, _⟩ => rfl | ⟨1, _⟩ => rfl),
    show ridx_main_v35 (ix2 r q) k = ix2 k q from funext fun a => Fin.ext (by match a with | ⟨0, _⟩ => rfl | ⟨1, _⟩ => rfl),
    v32_at]

/-- The bias row repeated down the table. -/
theorem v39_at (r : Fin 50000) (q : Fin 128) : val_main_v39 (F := Ideal) x10 (ix2 r q) = val_main_v37 (F := Ideal) x10 (ix1 q) := by
  rw [val_main_v39_apply, val_main_v38_apply]
  exact congrArg (val_main_v37 (F := Ideal) x10) (funext fun a => Fin.ext (by match a with | ⟨0, _⟩ => rfl))

/-- The product of the rows' own features with the second weight matrix, entry by entry. -/
theorem v43_at (r : Fin 50000) (q : Fin 128) :
    val_main_v43 (F := Ideal) x1 x6 x7 x9 (ix2 r q) = ∑ k : Fin 128, val_main_v9 (F := Ideal) x1 x6 x7 (ix2 r k) * val_main_v42 (F := Ideal) x9 (ix2 k q) := by
  rw [val_main_v43_apply]
  refine Finset.sum_congr rfl fun k _ => ?_
  rw [show lidx_main_v43 (ix2 r q) k = ix2 r k from funext fun a => Fin.ext (by match a with | ⟨0, _⟩ => rfl | ⟨1, _⟩ => rfl),
    show ridx_main_v43 (ix2 r q) k = ix2 k q from funext fun a => Fin.ext (by match a with | ⟨0, _⟩ => rfl | ⟨1, _⟩ => rfl)]

/-- The rectifier's table of zeros. -/
theorem call3_at (i : S50000x128.Idx) : val_main_call3_v0 (F := Ideal) i = 0 := by
  rw [val_main_call3_v0_apply, val_main_call3_cst_apply, Ideal.ofBits_def, Ideal.ofBits_zero_f32]

/-- The layer's output is the neighbour-mean layer of the specification: the reference's quotient form, with the bias
    added before the own-feature product, is the reciprocal form with the bias added last. -/
theorem v81_eq : val_main_v81 (F := Ideal) x0 x1 x2 x4 x5 x6 x7 x8 x9 x10
    = combine (val_main_v23 (F := Ideal) x0 x2 x4 x5) (recip (val_main_v27 (F := Ideal) x2)) (val_main_v9 (F := Ideal) x1 x6 x7) (val_main_v34 (F := Ideal) x8) (val_main_v42 (F := Ideal) x9) (val_main_v37 (F := Ideal) x10) := by
  funext i
  obtain ⟨r, q, rfl⟩ : ∃ (r : Fin 50000) (q : Fin 128), i = ix2 r q := ⟨i 0, i 1, eq_ix2 i⟩
  rw [val_main_v81_apply, val_main_v44_apply, val_main_v40_apply, Ideal.maximumf_def, Ideal.addf_def, Ideal.addf_def,
    v35_at, v39_at, v43_at, call3_at]
  exact combineQuotAt_eq (val_main_v23 (F := Ideal) x0 x2 x4 x5) (val_main_v27 (F := Ideal) x2) (val_main_v9 (F := Ideal) x1 x6 x7) (val_main_v34 (F := Ideal) x8) (val_main_v42 (F := Ideal) x9) (val_main_v37 (F := Ideal) x10) r q

/-! ### First layer, the other direction -/

/-- The divisor table read at a row: the row's neighbour count clamped below at one, the same in every column. -/
theorem v66_at (r : Fin 50000) (k : Fin 128) :
    val_main_v66 (F := Ideal) x3 (ix2 r k) = max (val_main_v62 (F := Ideal) x3 (ix1 r)) 1 := by
  rw [val_main_v66_apply, val_main_v65_apply, val_main_v64_apply, val_main_v63_apply, val_main_cst_9_apply,
    Ideal.maximumf_def, Ideal.ofBits_def, Cert.Sage.ofBits_one_f32]
  rw [show idx_main_v65 (idx_main_v66 (ix2 r k)) = ix1 r from funext fun a => Fin.ext (by match a with | ⟨0, _⟩ => rfl)]

/-- The neighbour mean at an entry: the summed neighbour feature divided by the clamped count of the row. -/
theorem v67_at (r : Fin 50000) (k : Fin 128) :
    val_main_v67 (F := Ideal) x1 x3 x6 x7 (ix2 r k) = Ideal.div (val_main_v58 (F := Ideal) x1 x3 x6 x7 (ix2 r k)) (max (val_main_v62 (F := Ideal) x3 (ix1 r)) 1) := by
  rw [val_main_v67_apply, Ideal.hostDivf_def, v66_at]

/-- The product of the neighbour means with the first weight matrix, entry by entry. -/
theorem v70_at (r : Fin 50000) (q : Fin 128) :
    val_main_v70 (F := Ideal) x1 x3 x6 x7 x11 (ix2 r q)
      = ∑ k : Fin 128, Ideal.div (val_main_v58 (F := Ideal) x1 x3 x6 x7 (ix2 r k)) (max (val_main_v62 (F := Ideal) x3 (ix1 r)) 1) * val_main_v69 (F := Ideal) x11 (ix2 k q) := by
  rw [val_main_v70_apply]
  refine Finset.sum_congr rfl fun k _ => ?_
  rw [show lidx_main_v70 (ix2 r q) k = ix2 r k from funext fun a => Fin.ext (by match a with | ⟨0, _⟩ => rfl | ⟨1, _⟩ => rfl),
    show ridx_main_v70 (ix2 r q) k = ix2 k q from funext fun a => Fin.ext (by match a with | ⟨0, _⟩ => rfl | ⟨1, _⟩ => rfl),
    v67_at]

/-- The bias row repeated down the table. -/
theorem v74_at (r : Fin 50000) (q : Fin 128) : val_main_v74 (F := Ideal) x13 (ix2 r q) = val_main_v72 (F := Ideal) x13 (ix1 q) := by
  rw [val_main_v74_apply, val_main_v73_apply]
  exact congrArg (val_main_v72 (F := Ideal) x13) (funext fun a => Fin.ext (by match a with | ⟨0, _⟩ => rfl))

/-- The product of the rows' own features with the second weight matrix, entry by entry. -/
theorem v78_at (r : Fin 50000) (q : Fin 128) :
    val_main_v78 (F := Ideal) x0 x4 x5 x12 (ix2 r q) = ∑ k : Fin 128, val_main_v4 (F := Ideal) x0 x4 x5 (ix2 r k) * val_main_v77 (F := Ideal) x12 (ix2 k q) := by
  rw [val_main_v78_apply]
  refine Finset.sum_congr rfl fun k _ => ?_
  rw [show lidx_main_v78 (ix2 r q) k = ix2 r k from funext fun a => Fin.ext (by match a with | ⟨0, _⟩ => rfl | ⟨1, _⟩ => rfl),
    show ridx_main_v78 (ix2 r q) k = ix2 k q from funext fun a => Fin.ext (by match a with | ⟨0, _⟩ => rfl | ⟨1, _⟩ => rfl)]

/-- The rectifier's table of zeros. -/
theorem call2_at (i : S50000x128.Idx) : val_main_call2_v0 (F := Ideal) i = 0 := by
  rw [val_main_call2_v0_apply, val_main_call2_cst_apply, Ideal.ofBits_def, Ideal.ofBits_zero_f32]

/-- The layer's output is the neighbour-mean layer of the specification: the reference's quotient form, with the bias
    added before the own-feature product, is the reciprocal form with the bias added last. -/
theorem v80_eq : val_main_v80 (F := Ideal) x0 x1 x3 x4 x5 x6 x7 x11 x12 x13
    = combine (val_main_v58 (F := Ideal) x1 x3 x6 x7) (recip (val_main_v62 (F := Ideal) x3)) (val_main_v4 (F := Ideal) x0 x4 x5) (val_main_v69 (F := Ideal) x11) (val_main_v77 (F := Ideal) x12) (val_main_v72 (F := Ideal) x13) := by
  funext i
  obtain ⟨r, q, rfl⟩ : ∃ (r : Fin 50000) (q : Fin 128), i = ix2 r q := ⟨i 0, i 1, eq_ix2 i⟩
  rw [val_main_v80_apply, val_main_v79_apply, val_main_v75_apply, Ideal.maximumf_def, Ideal.addf_def, Ideal.addf_def,
    v70_at, v74_at, v78_at, call2_at]
  exact combineQuotAt_eq (val_main_v58 (F := Ideal) x1 x3 x6 x7) (val_main_v62 (F := Ideal) x3) (val_main_v4 (F := Ideal) x0 x4 x5) (val_main_v69 (F := Ideal) x11) (val_main_v77 (F := Ideal) x12) (val_main_v72 (F := Ideal) x13) r q

/-! ### Second layer -/

/-- The divisor table read at a row: the row's neighbour count clamped below at one, the same in every column. -/
theorem v138_at (r : Fin 50000) (k : Fin 128) :
    val_main_v138 (F := Ideal) x3 (ix2 r k) = max (val_main_v134 (F := Ideal) x3 (ix1 r)) 1 := by
  rw [val_main_v138_apply, val_main_v137_apply, val_main_v136_apply, val_main_v135_apply, val_main_cst_21_apply,
    Ideal.maximumf_def, Ideal.ofBits_def, Cert.Sage.ofBits_one_f32]
  rw [show idx_main_v137 (idx_main_v138 (ix2 r k)) = ix1 r from funext fun a => Fin.ext (by match a with | ⟨0, _⟩ => rfl)]

/-- The neighbour mean at an entry: the summed neighbour feature divided by the clamped count of the row. -/
theorem v139_at (r : Fin 50000) (k : Fin 128) :
    val_main_v139 (F := Ideal) x0 x1 x2 x3 x4 x5 x6 x7 x8 x9 x10 (ix2 r k) = Ideal.div (val_main_v130 (F := Ideal) x0 x1 x2 x3 x4 x5 x6 x7 x8 x9 x10 (ix2 r k)) (max (val_main_v134 (F := Ideal) x3 (ix1 r)) 1) := by
  rw [val_main_v139_apply, Ideal.hostDivf_def, v138_at]

/-- The product of the neighbour means with the first weight matrix, entry by entry. -/
theorem v142_at (r : Fin 50000) (q : Fin 128) :
    val_main_v142 (F := Ideal) x0 x1 x2 x3 x4 x5 x6 x7 x8 x9 x10 x11 (ix2 r q)
      = ∑ k : Fin 128, Ideal.div (val_main_v130 (F := Ideal) x0 x1 x2 x3 x4 x5 x6 x7 x8 x9 x10 (ix2 r k)) (max (val_main_v134 (F := Ideal) x3 (ix1 r)) 1) * val_main_v141 (F := Ideal) x11 (ix2 k q) := by
  rw [val_main_v142_apply]
  refine Finset.sum_congr rfl fun k _ => ?_
  rw [show lidx_main_v142 (ix2 r q) k = ix2 r k from funext fun a => Fin.ext (by match a with | ⟨0, _⟩ => rfl | ⟨1, _⟩ => rfl),
    show ridx_main_v142 (ix2 r q) k = ix2 k q from funext fun a => Fin.ext (by match a with | ⟨0, _⟩ => rfl | ⟨1, _⟩ => rfl),
    v139_at]

/-- The bias row repeated down the table. -/
theorem v146_at (r : Fin 50000) (q : Fin 128) : val_main_v146 (F := Ideal) x13 (ix2 r q) = val_main_v144 (F := Ideal) x13 (ix1 q) := by
  rw [val_main_v146_apply, val_main_v145_apply]
  exact congrArg (val_main_v144 (F := Ideal) x13) (funext fun a => Fin.ext (by match a with | ⟨0, _⟩ => rfl))

/-- The product of the rows' own features with the second weight matrix, entry by entry. -/
theorem v150_at (r : Fin 50000) (q : Fin 128) :
    val_main_v150 (F := Ideal) x0 x1 x3 x4 x5 x6 x7 x11 x12 x13 (ix2 r q) = ∑ k : Fin 128, val_main_v80 (F := Ideal) x0 x1 x3 x4 x5 x6 x7 x11 x12 x13 (ix2 r k) * val_main_v149 (F := Ideal) x12 (ix2 k q) := by
  rw [val_main_v150_apply]
  refine Finset.sum_congr rfl fun k _ => ?_
  rw [show lidx_main_v150 (ix2 r q) k = ix2 r k from funext fun a => Fin.ext (by match a with | ⟨0, _⟩ => rfl | ⟨1, _⟩ => rfl),
    show ridx_main_v150 (ix2 r q) k = ix2 k q from funext fun a => Fin.ext (by match a with | ⟨0, _⟩ => rfl | ⟨1, _⟩ => rfl)]

/-- The rectifier's table of zeros. -/
theorem call4_at (i : S50000x128.Idx) : val_main_call4_v0 (F := Ideal) i = 0 := by
  rw [val_main_call4_v0_apply, val_main_call4_cst_apply, Ideal.ofBits_def, Ideal.ofBits_zero_f32]

/-- The layer's output is the neighbour-mean layer of the specification: the reference's quotient form, with the bias
    added before the own-feature product, is the reciprocal form with the bias added last. -/
theorem v152_eq : val_main_v152 (F := Ideal) x0 x1 x2 x3 x4 x5 x6 x7 x8 x9 x10 x11 x12 x13
    = combine (val_main_v130 (F := Ideal) x0 x1 x2 x3 x4 x5 x6 x7 x8 x9 x10) (recip (val_main_v134 (F := Ideal) x3)) (val_main_v80 (F := Ideal) x0 x1 x3 x4 x5 x6 x7 x11 x12 x13) (val_main_v141 (F := Ideal) x11) (val_main_v149 (F := Ideal) x12) (val_main_v144 (F := Ideal) x13) := by
  funext i
  obtain ⟨r, q, rfl⟩ : ∃ (r : Fin 50000) (q : Fin 128), i = ix2 r q := ⟨i 0, i 1, eq_ix2 i⟩
  rw [val_main_v152_apply, val_main_v151_apply, val_main_v147_apply, Ideal.maximumf_def, Ideal.addf_def, Ideal.addf_def,
    v142_at, v146_at, v150_at, call4_at]
  exact combineQuotAt_eq (val_main_v130 (F := Ideal) x0 x1 x2 x3 x4 x5 x6 x7 x8 x9 x10) (val_main_v134 (F := Ideal) x3) (val_main_v80 (F := Ideal) x0 x1 x3 x4 x5 x6 x7 x11 x12 x13) (val_main_v141 (F := Ideal) x11) (val_main_v149 (F := Ideal) x12) (val_main_v144 (F := Ideal) x13) r q

/-! ### Output head -/

/-- The head's matrix product, entry by entry. -/
theorem v154_at (r : Fin 50000) (q : Fin 64) :
    val_main_v154 (F := Ideal) x0 x1 x2 x3 x4 x5 x6 x7 x8 x9 x10 x11 x12 x13 x14 (ix2 r q) = ∑ j : Fin 128, val_main_v152 (F := Ideal) x0 x1 x2 x3 x4 x5 x6 x7 x8 x9 x10 x11 x12 x13 (ix2 r j) * x14 (ix2 j q) := by
  rw [val_main_v154_apply]
  refine Finset.sum_congr rfl fun k _ => ?_
  rw [show lidx_main_v154 (ix2 r q) k = ix2 r k from funext fun a => Fin.ext (by match a with | ⟨0, _⟩ => rfl | ⟨1, _⟩ => rfl),
    show ridx_main_v154 (ix2 r q) k = ix2 k q from funext fun a => Fin.ext (by match a with | ⟨0, _⟩ => rfl | ⟨1, _⟩ => rfl)]

/-- The head's bias row repeated down the table. -/
theorem v156_at (r : Fin 50000) (q : Fin 64) : val_main_v156 (F := Ideal) x15 (ix2 r q) = x15 (ix1 q) := by
  rw [val_main_v156_apply, val_main_v155_apply]
  exact congrArg x15 (funext fun a => Fin.ext (by match a with | ⟨0, _⟩ => rfl))

/-- The reference's result is the output head applied to the second layer's table. -/
theorem v157_eq : val_main_v157 (F := Ideal) x0 x1 x2 x3 x4 x5 x6 x7 x8 x9 x10 x11 x12 x13 x14 x15 = head (val_main_v152 (F := Ideal) x0 x1 x2 x3 x4 x5 x6 x7 x8 x9 x10 x11 x12 x13) x14 x15 := by
  funext i
  obtain ⟨r, q, rfl⟩ : ∃ (r : Fin 50000) (q : Fin 64), i = ix2 r q := ⟨i 0, i 1, eq_ix2 i⟩
  rw [val_main_v157_apply, Ideal.addf_def, v154_at, v156_at]
  rfl

end Cert.ReferenceIdeal.Hand

end
-- ==== Proof.Bound2.lean ====
/-
  The kernel program's buffers after its two dense kernels.

  Neither dense kernel and nothing before them writes an argument's buffer other than through a window that leaves it as
  it was, so after the second kernel every argument still holds its launch contents.  The first kernel's output table is
  the dense layer of three arguments as launched, and so is the second's of three others; the reference program's first
  two layers are the same dense layers of the same arguments.
-/
import proofs.«103222_j29746943492593_2_alg».proof.Proof.Gen.KernelIdeal.Frame
import proofs.«103222_j29746943492593_2_alg».proof.Proof.Blocks
import proofs.«103222_j29746943492593_2_alg».proof.Proof.RefValue
import proofs.«103222_j29746943492593_2_alg».proof.Proof.Spec

noncomputable section

namespace Cert.KernelIdeal.Bound

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- Argument 2's buffer after the second dense kernel holds its launch contents. -/
theorem at2_arg2 : W2 m ρ c (Proc.devRef .tc main_arg2) = m ((c : Thread nD τ).loc main_arg2) :=
  (W2_of_ne m ρ c main_arg2 (by decide)).trans ((W1_of_ne m ρ c main_arg2 (by decide)).trans rfl)

/-- Argument 3's buffer after the second dense kernel holds its launch contents. -/
theorem at2_arg3 : W2 m ρ c (Proc.devRef .tc main_arg3) = m ((c : Thread nD τ).loc main_arg3) :=
  (W2_of_ne m ρ c main_arg3 (by decide)).trans ((W1_of_ne m ρ c main_arg3 (by decide)).trans rfl)

/-- Argument 8's buffer after the second dense kernel holds its launch contents. -/
theorem at2_arg8 : W2 m ρ c (Proc.devRef .tc main_arg8) = m ((c : Thread nD τ).loc main_arg8) :=
  (W2_of_ne m ρ c main_arg8 (by decide)).trans ((W1_of_ne m ρ c main_arg8 (by decide)).trans rfl)

/-- Argument 9's buffer after the second dense kernel holds its launch contents. -/
theorem at2_arg9 : W2 m ρ c (Proc.devRef .tc main_arg9) = m ((c : Thread nD τ).loc main_arg9) :=
  (W2_of_ne m ρ c main_arg9 (by decide)).trans ((W1_of_ne m ρ c main_arg9 (by decide)).trans rfl)

/-- Argument 10's buffer after the second dense kernel holds its launch contents. -/
theorem at2_arg10 : W2 m ρ c (Proc.devRef .tc main_arg10) = m ((c : Thread nD τ).loc main_arg10) :=
  (W2_of_ne m ρ c main_arg10 (by decide)).trans ((W1_of_ne m ρ c main_arg10 (by decide)).trans rfl)

/-- Argument 11's buffer after the second dense kernel holds its launch contents. -/
theorem at2_arg11 : W2 m ρ c (Proc.devRef .tc main_arg11) = m ((c : Thread nD τ).loc main_arg11) :=
  (W2_of_ne m ρ c main_arg11 (by decide)).trans ((W1_of_ne m ρ c main_arg11 (by decide)).trans rfl)

/-- Argument 12's buffer after the second dense kernel holds its launch contents. -/
theorem at2_arg12 : W2 m ρ c (Proc.devRef .tc main_arg12) = m ((c : Thread nD τ).loc main_arg12) :=
  (W2_of_ne m ρ c main_arg12 (by decide)).trans ((W1_of_ne m ρ c main_arg12 (by decide)).trans rfl)

/-- Argument 13's buffer after the second dense kernel holds its launch contents. -/
theorem at2_arg13 : W2 m ρ c (Proc.devRef .tc main_arg13) = m ((c : Thread nD τ).loc main_arg13) :=
  (W2_of_ne m ρ c main_arg13 (by decide)).trans ((W1_of_ne m ρ c main_arg13 (by decide)).trans rfl)

/-- Argument 14's buffer after the second dense kernel holds its launch contents. -/
theorem at2_arg14 : W2 m ρ c (Proc.devRef .tc main_arg14) = m ((c : Thread nD τ).loc main_arg14) :=
  (W2_of_ne m ρ c main_arg14 (by decide)).trans ((W1_of_ne m ρ c main_arg14 (by decide)).trans rfl)

/-- Argument 15's buffer after the second dense kernel holds its launch contents. -/
theorem at2_arg15 : W2 m ρ c (Proc.devRef .tc main_arg15) = m ((c : Thread nD τ).loc main_arg15) :=
  (W2_of_ne m ρ c main_arg15 (by decide)).trans ((W1_of_ne m ρ c main_arg15 (by decide)).trans rfl)

/-- The first dense kernel's output table after the second dense kernel: the reference's first dense layer of the
    launch contents. -/
theorem at2_v0 : W2 m ρ c (Proc.devRef .tc main_v0) = Cert.ReferenceIdeal.Read.val_main_v4 (F := Ideal) (m ((c : Thread nD τ).loc main_arg0)) (m ((c : Thread nD τ).loc main_arg4)) (m ((c : Thread nD τ).loc main_arg5)) :=
  (W2_of_ne m ρ c main_v0 (by decide)).trans <|
  (W1_arr m ρ c 3).trans <|
  (Blocks.final0 (V0 m ρ) c).trans <|
  (Cert.ReferenceIdeal.Hand.v4_eq _ _ _).symm

/-- The second dense kernel's output table after it: the reference's second dense layer of the launch contents. -/
theorem at2_v1 : W2 m ρ c (Proc.devRef .tc main_v1) = Cert.ReferenceIdeal.Read.val_main_v9 (F := Ideal) (m ((c : Thread nD τ).loc main_arg1)) (m ((c : Thread nD τ).loc main_arg6)) (m ((c : Thread nD τ).loc main_arg7)) := by
  have h1 : V1 m ρ c main_arg1 = m ((c : Thread nD τ).loc main_arg1) := (W1_of_ne m ρ c main_arg1 (by decide)).trans rfl
  have h6 : V1 m ρ c main_arg6 = m ((c : Thread nD τ).loc main_arg6) := (W1_of_ne m ρ c main_arg6 (by decide)).trans rfl
  have h7 : V1 m ρ c main_arg7 = m ((c : Thread nD τ).loc main_arg7) := (W1_of_ne m ρ c main_arg7 (by decide)).trans rfl
  refine (W2_arr m ρ c 3).trans <| (Blocks.final1 (V1 m ρ) c).trans ?_
  rw [h1, h6, h7]
  exact (Cert.ReferenceIdeal.Hand.v9_eq _ _ _).symm

end Cert.KernelIdeal.Bound
end
-- ==== Proof.Column.lean ====
/-
  The reciprocal of the clamped neighbour count as a one-column table.

  The host code forms, from the count table n over the 50000 rows: the constant one spread over the rows, the maximum of
  n and it, the quotient of the constant one spread over the rows by that maximum, and the result laid out as a
  [50000, 1] column.  Read at row r (and the one column) this is  1 / max (n r) 1 : a scalar spread over an axis reads
  the scalar, a vector laid out as a column reads the vector at the row, the float word 0x3F800000 denotes one, and the
  maximum and the quotient act entry by entry.
-/
import proofs.«103222_j29746943492593_2_alg».proof.KernelIdeal
import proofs.«103222_j29746943492593_2_alg».proof.Proof.Gen.KernelIdeal
import proofs.«103222_j29746943492593_2_alg».proof.Proof.Spec
import Idealize.ShloMosaic.Lib.Pipeline.Value
import Idealize.ShloMosaic.Lib.ValueIdx
import Idealize.ShloMosaic.PureOps.Ideal.Laws

noncomputable section

namespace Cert.KernelIdeal.Column

open Cert.KernelIdeal Idealize.ShloMosaic Idealize.ShloMosaic.ValueIdx Idealize.SL.Sem
open Cert.KernelIdeal.Facts₀

/-- A scalar spread over the 50000 rows reads, at every row, the scalar. -/
theorem splat_apply (h : S_.BroadcastsInDim S50000 (![] : Fin 0 → Fin S50000.rank)) (y : S_.Idx → EReal) (i : S50000.Idx) :
    broadcastInDim S50000 ![] h y i = y (fun a => a.elim0) :=
  broadcastInDim_apply _ h y i (fun a => a.elim0) (fun a => a.elim0)

/-- A vector over the 50000 rows laid out as a [50000, 1] column reads, at (r, u), the vector at r. -/
theorem col_apply (h : S50000.BroadcastsInDim S50000x1 (![0] : Fin 1 → Fin S50000x1.rank)) (y : S50000.Idx → EReal)
    (r : Fin 50000) (u : Fin 1) : broadcastInDim S50000x1 ![0] h y (ix2 r u) = y (ix1 r) :=
  broadcastInDim_apply _ h y (ix2 r u) (ix1 r) (fun a => match a with
    | ⟨0, _⟩ => by show r.val = if (50000 : Nat) = 1 then 0 else r.val; rw [if_neg (by decide)])

/-- The host's one-column table of reciprocals of the clamped count is the specification's. -/
theorem inv_col (n : (⟨S50000, .f32⟩ : BufTy).Contents (Elt Ideal)) :
    broadcastInDim S50000x1 ![0] bcast_S50000_S50000x1_0 (Host.divf (F := Ideal) (broadcastInDim S50000 ![] bcast_S_S50000 (constant (F := Ideal) S_ .f32 0x3F800000#32)) (maximumf n (broadcastInDim S50000 ![] bcast_S_S50000 (constant (F := Ideal) S_ .f32 0x3F800000#32)))) = Cert.Sage.recip n := by
  funext i
  obtain ⟨r, u, rfl⟩ : ∃ (r : Fin 50000) (u : Fin 1), i = ix2 r u := ⟨i 0, i 1, eq_ix2 i⟩
  rw [col_apply]
  have h1 : broadcastInDim S50000 ![] bcast_S_S50000 (constant (F := Ideal) S_ .f32 0x3F800000#32) (ix1 r) = 1 :=
    (splat_apply _ _ _).trans Cert.Sage.ofBits_one_f32
  exact congrArg₂ (fun a b => Ideal.div a (max (n (ix1 r)) b)) h1 h1

end Cert.KernelIdeal.Column
end
-- ==== Proof.Bound3.lean ====
/-
  The kernel program's buffers at its third kernel's entry.

  Between the second and third kernels the host forms, from the launch contents of the index and weight arguments and
  from the first dense table: the summed neighbour features (a gather of the dense table's rows scattered by sum onto the
  destination rows), the two one-column tables of reciprocals of the clamped neighbour counts, and the first layer's two
  weight matrices and bias as slices of the stacked arguments.  The reference program forms the same values by the same
  operations, so each is the reference's value function of the launch contents; the tables of reciprocals are the
  specification's `recip` of the reference's neighbour counts.  Buffers the host stretch does not write hold what they
  held after the second kernel.
-/
import proofs.«103222_j29746943492593_2_alg».proof.Proof.Bound2
import proofs.«103222_j29746943492593_2_alg».proof.Proof.Column
import proofs.«103222_j29746943492593_2_alg».proof.Proof.RefValue
import Idealize.ShloMosaic.Lib.StableHlo.Run

noncomputable section

namespace Cert.KernelIdeal.Bound

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

set_option maxHeartbeats 4000000 in
/-- The summed neighbour features of the first layer, gathered from the first dense table, are the reference's. -/
theorem at3_v38 : W3 m ρ c (Proc.devRef .tc main_v38) = Cert.ReferenceIdeal.Read.val_main_v23 (F := Ideal) (m ((c : Thread nD τ).loc main_arg0)) (m ((c : Thread nD τ).loc main_arg2)) (m ((c : Thread nD τ).loc main_arg4)) (m ((c : Thread nD τ).loc main_arg5)) := by
  have e2 := at2_arg2 m ρ c
  have e0 := at2_v0 m ρ c
  show StableHlo.after hostOps2 (W2 m ρ c) (Proc.devRef .tc main_v38) = _
  generalize W2 m ρ c = W at e2 e0
  after_results_simp
  simp only [e2, e0]
  rfl

set_option maxHeartbeats 4000000 in
/-- The one-column table of reciprocals of the clamped counts over argument 2's destination rows is the specification's `recip` of the reference's counts. -/
theorem at3_v23 : W3 m ρ c (Proc.devRef .tc main_v23) = Cert.Sage.recip (Cert.ReferenceIdeal.Read.val_main_v27 (F := Ideal) (m ((c : Thread nD τ).loc main_arg2))) := by
  have e2 := at2_arg2 m ρ c
  show StableHlo.after hostOps2 (W2 m ρ c) (Proc.devRef .tc main_v23) = _
  generalize W2 m ρ c = W at e2
  after_results_simp
  simp only [e2]
  refine (Cert.KernelIdeal.Column.inv_col _).trans ?_
  rfl

set_option maxHeartbeats 4000000 in
/-- The one-column table of reciprocals of the clamped counts over argument 3's destination rows is the specification's `recip` of the reference's counts. -/
theorem at3_v12 : W3 m ρ c (Proc.devRef .tc main_v12) = Cert.Sage.recip (Cert.ReferenceIdeal.Read.val_main_v62 (F := Ideal) (m ((c : Thread nD τ).loc main_arg3))) := by
  have e3 := at2_arg3 m ρ c
  show StableHlo.after hostOps2 (W2 m ρ c) (Proc.devRef .tc main_v12) = _
  generalize W2 m ρ c = W at e3
  after_results_simp
  simp only [e3]
  refine (Cert.KernelIdeal.Column.inv_col _).trans ?_
  rfl

set_option maxHeartbeats 4000000 in
/-- The first layer's neighbour weight matrix: the first slice of argument 8. -/
theorem at3_v40 : W3 m ρ c (Proc.devRef .tc main_v40) = Cert.ReferenceIdeal.Read.val_main_v34 (F := Ideal) (m ((c : Thread nD τ).loc main_arg8)) := by
  have e8 := at2_arg8 m ρ c
  show StableHlo.after hostOps2 (W2 m ρ c) (Proc.devRef .tc main_v40) = _
  generalize W2 m ρ c = W at e8
  after_results_simp
  simp only [e8]
  rfl

set_option maxHeartbeats 4000000 in
/-- The first layer's own-feature weight matrix: the first slice of argument 9. -/
theorem at3_v42 : W3 m ρ c (Proc.devRef .tc main_v42) = Cert.ReferenceIdeal.Read.val_main_v42 (F := Ideal) (m ((c : Thread nD τ).loc main_arg9)) := by
  have e9 := at2_arg9 m ρ c
  show StableHlo.after hostOps2 (W2 m ρ c) (Proc.devRef .tc main_v42) = _
  generalize W2 m ρ c = W at e9
  after_results_simp
  simp only [e9]
  rfl

set_option maxHeartbeats 4000000 in
/-- The first layer's bias: the first row of argument 10. -/
theorem at3_v44 : W3 m ρ c (Proc.devRef .tc main_v44) = Cert.ReferenceIdeal.Read.val_main_v37 (F := Ideal) (m ((c : Thread nD τ).loc main_arg10)) := by
  have e10 := at2_arg10 m ρ c
  show StableHlo.after hostOps2 (W2 m ρ c) (Proc.devRef .tc main_v44) = _
  generalize W2 m ρ c = W at e10
  after_results_simp
  simp only [e10]
  rfl

set_option maxHeartbeats 4000000 in
/-- The second dense table is not written between the second and third kernels. -/
theorem at3_v1 : W3 m ρ c (Proc.devRef .tc main_v1) = Cert.ReferenceIdeal.Read.val_main_v9 (F := Ideal) (m ((c : Thread nD τ).loc main_arg1)) (m ((c : Thread nD τ).loc main_arg6)) (m ((c : Thread nD τ).loc main_arg7)) := by
  have e := at2_v1 m ρ c
  show StableHlo.after hostOps2 (W2 m ρ c) (Proc.devRef .tc main_v1) = _
  generalize W2 m ρ c = W at e
  after_results_simp
  exact e

set_option maxHeartbeats 4000000 in
/-- The first dense table is not written between the second and third kernels. -/
theorem at3_v0 : W3 m ρ c (Proc.devRef .tc main_v0) = Cert.ReferenceIdeal.Read.val_main_v4 (F := Ideal) (m ((c : Thread nD τ).loc main_arg0)) (m ((c : Thread nD τ).loc main_arg4)) (m ((c : Thread nD τ).loc main_arg5)) := by
  have e := at2_v0 m ρ c
  show StableHlo.after hostOps2 (W2 m ρ c) (Proc.devRef .tc main_v0) = _
  generalize W2 m ρ c = W at e
  after_results_simp
  exact e

set_option maxHeartbeats 4000000 in
/-- Argument 3's buffer is not written between the second and third kernels. -/
theorem at3_arg3 : W3 m ρ c (Proc.devRef .tc main_arg3) = m ((c : Thread nD τ).loc main_arg3) := by
  have e := at2_arg3 m ρ c
  show StableHlo.after hostOps2 (W2 m ρ c) (Proc.devRef .tc main_arg3) = _
  generalize W2 m ρ c = W at e
  after_results_simp
  exact e

set_option maxHeartbeats 4000000 in
/-- Argument 11's buffer is not written between the second and third kernels. -/
theorem at3_arg11 : W3 m ρ c (Proc.devRef .tc main_arg11) = m ((c : Thread nD τ).loc main_arg11) := by
  have e := at2_arg11 m ρ c
  show StableHlo.after hostOps2 (W2 m ρ c) (Proc.devRef .tc main_arg11) = _
  generalize W2 m ρ c = W at e
  after_results_simp
  exact e

set_option maxHeartbeats 4000000 in
/-- Argument 12's buffer is not written between the second and third kernels. -/
theorem at3_arg12 : W3 m ρ c (Proc.devRef .tc main_arg12) = m ((c : Thread nD τ).loc main_arg12) := by
  have e := at2_arg12 m ρ c
  show StableHlo.after hostOps2 (W2 m ρ c) (Proc.devRef .tc main_arg12) = _
  generalize W2 m ρ c = W at e
  after_results_simp
  exact e

set_option maxHeartbeats 4000000 in
/-- Argument 13's buffer is not written between the second and third kernels. -/
theorem at3_arg13 : W3 m ρ c (Proc.devRef .tc main_arg13) = m ((c : Thread nD τ).loc main_arg13) := by
  have e := at2_arg13 m ρ c
  show StableHlo.after hostOps2 (W2 m ρ c) (Proc.devRef .tc main_arg13) = _
  generalize W2 m ρ c = W at e
  after_results_simp
  exact e

set_option maxHeartbeats 4000000 in
/-- Argument 14's buffer is not written between the second and third kernels. -/
theorem at3_arg14 : W3 m ρ c (Proc.devRef .tc main_arg14) = m ((c : Thread nD τ).loc main_arg14) := by
  have e := at2_arg14 m ρ c
  show StableHlo.after hostOps2 (W2 m ρ c) (Proc.devRef .tc main_arg14) = _
  generalize W2 m ρ c = W at e
  after_results_simp
  exact e

set_option maxHeartbeats 4000000 in
/-- Argument 15's buffer is not written between the second and third kernels. -/
theorem at3_arg15 : W3 m ρ c (Proc.devRef .tc main_arg15) = m ((c : Thread nD τ).loc main_arg15) := by
  have e := at2_arg15 m ρ c
  show StableHlo.after hostOps2 (W2 m ρ c) (Proc.devRef .tc main_arg15) = _
  generalize W2 m ρ c = W at e
  after_results_simp
  exact e

end Cert.KernelIdeal.Bound
end
-- ==== Proof.Bound4.lean ====
/-
  The kernel program's buffers after its first neighbour-mean kernel.

  The kernel's output table is the neighbour-mean layer of its six operand tables as it found them; each of those is,
  by what is known before the kernel, a value of the reference program at the launch contents, and the reference's own
  first neighbour-mean layer is the same layer of the same six values.  An operand the kernel only reads through a
  window is left as it was, and so is every buffer the kernel does not touch.
-/
import proofs.«103222_j29746943492593_2_alg».proof.Proof.Gen.KernelIdeal.Frame
import proofs.«103222_j29746943492593_2_alg».proof.Proof.Blocks
import proofs.«103222_j29746943492593_2_alg».proof.Proof.RefValue
import proofs.«103222_j29746943492593_2_alg».proof.Proof.Spec
import proofs.«103222_j29746943492593_2_alg».proof.Proof.Bound3

noncomputable section

namespace Cert.KernelIdeal.Bound

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The first neighbour-mean kernel's output table: the reference's first neighbour-mean layer of the launch contents. -/
theorem at4_v45 : W4 m ρ c (Proc.devRef .tc main_v45) = Cert.ReferenceIdeal.Read.val_main_v81 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h38 : V3 m ρ c main_v38 = _ := at3_v38 m ρ c
  have h23 : V3 m ρ c main_v23 = _ := at3_v23 m ρ c
  have h1 : V3 m ρ c main_v1 = _ := at3_v1 m ρ c
  have h40 : V3 m ρ c main_v40 = _ := at3_v40 m ρ c
  have h42 : V3 m ρ c main_v42 = _ := at3_v42 m ρ c
  have h44 : V3 m ρ c main_v44 = _ := at3_v44 m ρ c
  refine (W4_arr m ρ c 6).trans <| (Blocks.final2 (V3 m ρ) c).trans ?_
  rw [h38, h23, h1, h40, h42, h44]
  exact (Cert.ReferenceIdeal.Hand.v81_eq _ _ _ _ _ _ _ _ _ _).symm

/-- The second dense layer's table, which the kernel reads through a window, is left as it was. -/
theorem at4_v1 : W4 m ρ c (Proc.devRef .tc main_v1) = Cert.ReferenceIdeal.Read.val_main_v9 (F := Ideal) (m ((c : Thread nD τ).loc main_arg1)) (m ((c : Thread nD τ).loc main_arg6)) (m ((c : Thread nD τ).loc main_arg7)) :=
  (W4_arr m ρ c 2).trans <| (((dat2 (V3 m ρ) c).arrAt_in 2 rfl _).trans (A_eq2 (V3 m ρ) c 2)).trans <| at3_v1 m ρ c

/-- The second reciprocal-count column is untouched. -/
theorem at4_v12 : W4 m ρ c (Proc.devRef .tc main_v12) = Cert.Sage.recip (Cert.ReferenceIdeal.Read.val_main_v62 (F := Ideal) (m ((c : Thread nD τ).loc main_arg3))) :=
  (W4_of_ne m ρ c main_v12 (by decide)).trans (at3_v12 m ρ c)

/-- The first dense layer's table is untouched. -/
theorem at4_v0 : W4 m ρ c (Proc.devRef .tc main_v0) = Cert.ReferenceIdeal.Read.val_main_v4 (F := Ideal) (m ((c : Thread nD τ).loc main_arg0)) (m ((c : Thread nD τ).loc main_arg4)) (m ((c : Thread nD τ).loc main_arg5)) :=
  (W4_of_ne m ρ c main_v0 (by decide)).trans (at3_v0 m ρ c)

/-- Argument 3's buffer still holds its launch contents. -/
theorem at4_arg3 : W4 m ρ c (Proc.devRef .tc main_arg3) = m ((c : Thread nD τ).loc main_arg3) :=
  (W4_of_ne m ρ c main_arg3 (by decide)).trans (at3_arg3 m ρ c)

/-- Argument 11's buffer still holds its launch contents. -/
theorem at4_arg11 : W4 m ρ c (Proc.devRef .tc main_arg11) = m ((c : Thread nD τ).loc main_arg11) :=
  (W4_of_ne m ρ c main_arg11 (by decide)).trans (at3_arg11 m ρ c)

/-- Argument 12's buffer still holds its launch contents. -/
theorem at4_arg12 : W4 m ρ c (Proc.devRef .tc main_arg12) = m ((c : Thread nD τ).loc main_arg12) :=
  (W4_of_ne m ρ c main_arg12 (by decide)).trans (at3_arg12 m ρ c)

/-- Argument 13's buffer still holds its launch contents. -/
theorem at4_arg13 : W4 m ρ c (Proc.devRef .tc main_arg13) = m ((c : Thread nD τ).loc main_arg13) :=
  (W4_of_ne m ρ c main_arg13 (by decide)).trans (at3_arg13 m ρ c)

/-- Argument 14's buffer still holds its launch contents. -/
theorem at4_arg14 : W4 m ρ c (Proc.devRef .tc main_arg14) = m ((c : Thread nD τ).loc main_arg14) :=
  (W4_of_ne m ρ c main_arg14 (by decide)).trans (at3_arg14 m ρ c)

/-- Argument 15's buffer still holds its launch contents. -/
theorem at4_arg15 : W4 m ρ c (Proc.devRef .tc main_arg15) = m ((c : Thread nD τ).loc main_arg15) :=
  (W4_of_ne m ρ c main_arg15 (by decide)).trans (at3_arg15 m ρ c)

end Cert.KernelIdeal.Bound
end
-- ==== Proof.Bound5.lean ====
/-
  The buffers after the host operations between the third and the fourth kernel.

  The stretch slices the reverse edge list into sources and destinations, wraps negative sources, gathers the second node
  type's features along the sources and sums them per destination, and slices the first layer's weights out of the stacked
  weight tables.  Applied to tables that are already the reference's, each result is the reference's table of the same
  operations.
-/
import proofs.«103222_j29746943492593_2_alg».proof.Proof.Bound4
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Bound

open Cert.KernelIdeal Cert.KernelIdeal.Gen Cert.Sage Cert.ReferenceIdeal.Read

variable (m : (ℓ : Loc nD τ sig) → Buf (Elt Ideal) ℓ) (ρ : Dev nD → PrngReg) (c : Dev nD)

set_option maxHeartbeats 4000000 in
/-- The features of the second node type, gathered along the reverse edges and summed per destination. -/
theorem at5_v60 : W5 m ρ c (Proc.devRef .tc main_v60) = val_main_v58 (F := Ideal) (m ((c : Thread nD τ).loc main_arg1)) (m ((c : Thread nD τ).loc main_arg3)) (m ((c : Thread nD τ).loc main_arg6)) (m ((c : Thread nD τ).loc main_arg7)) := by
  have e0 := at4_arg3 m ρ c
  have e1 := at4_v1 m ρ c
  show StableHlo.after hostOps3 (W4 m ρ c) (Proc.devRef .tc main_v60) = _
  generalize W4 m ρ c = W at e0 e1
  after_results_simp
  simp only [e0, e1]
  rfl

set_option maxHeartbeats 4000000 in
/-- The first layer's neighbour weight matrix. -/
theorem at5_v62 : W5 m ρ c (Proc.devRef .tc main_v62) = val_main_v69 (F := Ideal) (m ((c : Thread nD τ).loc main_arg11)) := by
  have e0 := at4_arg11 m ρ c
  show StableHlo.after hostOps3 (W4 m ρ c) (Proc.devRef .tc main_v62) = _
  generalize W4 m ρ c = W at e0
  after_results_simp
  simp only [e0]
  rfl

set_option maxHeartbeats 4000000 in
/-- The first layer's own-feature weight matrix. -/
theorem at5_v64 : W5 m ρ c (Proc.devRef .tc main_v64) = val_main_v77 (F := Ideal) (m ((c : Thread nD τ).loc main_arg12)) := by
  have e0 := at4_arg12 m ρ c
  show StableHlo.after hostOps3 (W4 m ρ c) (Proc.devRef .tc main_v64) = _
  generalize W4 m ρ c = W at e0
  after_results_simp
  simp only [e0]
  rfl

set_option maxHeartbeats 4000000 in
/-- The first layer's bias. -/
theorem at5_v66 : W5 m ρ c (Proc.devRef .tc main_v66) = val_main_v72 (F := Ideal) (m ((c : Thread nD τ).loc main_arg13)) := by
  have e0 := at4_arg13 m ρ c
  show StableHlo.after hostOps3 (W4 m ρ c) (Proc.devRef .tc main_v66) = _
  generalize W4 m ρ c = W at e0
  after_results_simp
  simp only [e0]
  rfl

set_option maxHeartbeats 4000000 in
/-- The reciprocal counts are not touched by this stretch. -/
theorem at5_v12 : W5 m ρ c (Proc.devRef .tc main_v12) = recip (val_main_v62 (F := Ideal) (m ((c : Thread nD τ).loc main_arg3))) := by
  have e0 := at4_v12 m ρ c
  show StableHlo.after hostOps3 (W4 m ρ c) (Proc.devRef .tc main_v12) = _
  generalize W4 m ρ c = W at e0
  after_results_simp
  exact e0

set_option maxHeartbeats 4000000 in
/-- The first node type's input features are not touched by this stretch. -/
theorem at5_v0 : W5 m ρ c (Proc.devRef .tc main_v0) = val_main_v4 (F := Ideal) (m ((c : Thread nD τ).loc main_arg0)) (m ((c : Thread nD τ).loc main_arg4)) (m ((c : Thread nD τ).loc main_arg5)) := by
  have e0 := at4_v0 m ρ c
  show StableHlo.after hostOps3 (W4 m ρ c) (Proc.devRef .tc main_v0) = _
  generalize W4 m ρ c = W at e0
  after_results_simp
  exact e0

set_option maxHeartbeats 4000000 in
/-- The second node type's first-layer features are not touched by this stretch. -/
theorem at5_v45 : W5 m ρ c (Proc.devRef .tc main_v45) = val_main_v81 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e0 := at4_v45 m ρ c
  show StableHlo.after hostOps3 (W4 m ρ c) (Proc.devRef .tc main_v45) = _
  generalize W4 m ρ c = W at e0
  after_results_simp
  exact e0

set_option maxHeartbeats 4000000 in
/-- Argument 3 is not touched by this stretch. -/
theorem at5_arg3 : W5 m ρ c (Proc.devRef .tc main_arg3) = (m ((c : Thread nD τ).loc main_arg3)) := by
  have e0 := at4_arg3 m ρ c
  show StableHlo.after hostOps3 (W4 m ρ c) (Proc.devRef .tc main_arg3) = _
  generalize W4 m ρ c = W at e0
  after_results_simp
  exact e0

set_option maxHeartbeats 4000000 in
/-- Argument 11 is not touched by this stretch. -/
theorem at5_arg11 : W5 m ρ c (Proc.devRef .tc main_arg11) = (m ((c : Thread nD τ).loc main_arg11)) := by
  have e0 := at4_arg11 m ρ c
  show StableHlo.after hostOps3 (W4 m ρ c) (Proc.devRef .tc main_arg11) = _
  generalize W4 m ρ c = W at e0
  after_results_simp
  exact e0

set_option maxHeartbeats 4000000 in
/-- Argument 12 is not touched by this stretch. -/
theorem at5_arg12 : W5 m ρ c (Proc.devRef .tc main_arg12) = (m ((c : Thread nD τ).loc main_arg12)) := by
  have e0 := at4_arg12 m ρ c
  show StableHlo.after hostOps3 (W4 m ρ c) (Proc.devRef .tc main_arg12) = _
  generalize W4 m ρ c = W at e0
  after_results_simp
  exact e0

set_option maxHeartbeats 4000000 in
/-- Argument 13 is not touched by this stretch. -/
theorem at5_arg13 : W5 m ρ c (Proc.devRef .tc main_arg13) = (m ((c : Thread nD τ).loc main_arg13)) := by
  have e0 := at4_arg13 m ρ c
  show StableHlo.after hostOps3 (W4 m ρ c) (Proc.devRef .tc main_arg13) = _
  generalize W4 m ρ c = W at e0
  after_results_simp
  exact e0

set_option maxHeartbeats 4000000 in
/-- Argument 14 is not touched by this stretch. -/
theorem at5_arg14 : W5 m ρ c (Proc.devRef .tc main_arg14) = (m ((c : Thread nD τ).loc main_arg14)) := by
  have e0 := at4_arg14 m ρ c
  show StableHlo.after hostOps3 (W4 m ρ c) (Proc.devRef .tc main_arg14) = _
  generalize W4 m ρ c = W at e0
  after_results_simp
  exact e0

set_option maxHeartbeats 4000000 in
/-- Argument 15 is not touched by this stretch. -/
theorem at5_arg15 : W5 m ρ c (Proc.devRef .tc main_arg15) = (m ((c : Thread nD τ).loc main_arg15)) := by
  have e0 := at4_arg15 m ρ c
  show StableHlo.after hostOps3 (W4 m ρ c) (Proc.devRef .tc main_arg15) = _
  generalize W4 m ρ c = W at e0
  after_results_simp
  exact e0

end Cert.KernelIdeal.Bound

end
-- ==== Proof.Bound6.lean ====
/-
  The kernel program's buffers after its second neighbour-mean kernel.

  The kernel's output table is the neighbour-mean layer of its six operand tables as it found them; each of those is,
  by what is known before the kernel, a value of the reference program at the launch contents, and the reference's own
  second neighbour-mean layer is the same layer of the same six values.  An operand the kernel only reads through a
  window is left as it was, and so is every buffer the kernel does not touch.
-/
import proofs.«103222_j29746943492593_2_alg».proof.Proof.Gen.KernelIdeal.Frame
import proofs.«103222_j29746943492593_2_alg».proof.Proof.Blocks
import proofs.«103222_j29746943492593_2_alg».proof.Proof.RefValue
import proofs.«103222_j29746943492593_2_alg».proof.Proof.Spec
import proofs.«103222_j29746943492593_2_alg».proof.Proof.Bound5

noncomputable section

namespace Cert.KernelIdeal.Bound

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The second neighbour-mean kernel's output table: the reference's second neighbour-mean layer of the launch
    contents. -/
theorem at6_v67 : W6 m ρ c (Proc.devRef .tc main_v67) = Cert.ReferenceIdeal.Read.val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) := by
  have h60 : V5 m ρ c main_v60 = _ := at5_v60 m ρ c
  have h12 : V5 m ρ c main_v12 = _ := at5_v12 m ρ c
  have h0 : V5 m ρ c main_v0 = _ := at5_v0 m ρ c
  have h62 : V5 m ρ c main_v62 = _ := at5_v62 m ρ c
  have h64 : V5 m ρ c main_v64 = _ := at5_v64 m ρ c
  have h66 : V5 m ρ c main_v66 = _ := at5_v66 m ρ c
  refine (W6_arr m ρ c 6).trans <| (Blocks.final3 (V5 m ρ) c).trans ?_
  rw [h60, h12, h0, h62, h64, h66]
  exact (Cert.ReferenceIdeal.Hand.v80_eq _ _ _ _ _ _ _ _ _ _).symm

/-- The second reciprocal-count column, which the kernel reads through a window, is left as it was. -/
theorem at6_v12 : W6 m ρ c (Proc.devRef .tc main_v12) = Cert.Sage.recip (Cert.ReferenceIdeal.Read.val_main_v62 (F := Ideal) (m ((c : Thread nD τ).loc main_arg3))) :=
  (W6_arr m ρ c 1).trans <| (((dat3 (V5 m ρ) c).arrAt_in 1 rfl _).trans (A_eq3 (V5 m ρ) c 1)).trans <| at5_v12 m ρ c

/-- The first neighbour-mean layer's table is untouched. -/
theorem at6_v45 : W6 m ρ c (Proc.devRef .tc main_v45) = Cert.ReferenceIdeal.Read.val_main_v81 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_of_ne m ρ c main_v45 (by decide)).trans (at5_v45 m ρ c)

/-- Argument 3's buffer still holds its launch contents. -/
theorem at6_arg3 : W6 m ρ c (Proc.devRef .tc main_arg3) = m ((c : Thread nD τ).loc main_arg3) :=
  (W6_of_ne m ρ c main_arg3 (by decide)).trans (at5_arg3 m ρ c)

/-- Argument 11's buffer still holds its launch contents. -/
theorem at6_arg11 : W6 m ρ c (Proc.devRef .tc main_arg11) = m ((c : Thread nD τ).loc main_arg11) :=
  (W6_of_ne m ρ c main_arg11 (by decide)).trans (at5_arg11 m ρ c)

/-- Argument 12's buffer still holds its launch contents. -/
theorem at6_arg12 : W6 m ρ c (Proc.devRef .tc main_arg12) = m ((c : Thread nD τ).loc main_arg12) :=
  (W6_of_ne m ρ c main_arg12 (by decide)).trans (at5_arg12 m ρ c)

/-- Argument 13's buffer still holds its launch contents. -/
theorem at6_arg13 : W6 m ρ c (Proc.devRef .tc main_arg13) = m ((c : Thread nD τ).loc main_arg13) :=
  (W6_of_ne m ρ c main_arg13 (by decide)).trans (at5_arg13 m ρ c)

/-- Argument 14's buffer still holds its launch contents. -/
theorem at6_arg14 : W6 m ρ c (Proc.devRef .tc main_arg14) = m ((c : Thread nD τ).loc main_arg14) :=
  (W6_of_ne m ρ c main_arg14 (by decide)).trans (at5_arg14 m ρ c)

/-- Argument 15's buffer still holds its launch contents. -/
theorem at6_arg15 : W6 m ρ c (Proc.devRef .tc main_arg15) = m ((c : Thread nD τ).loc main_arg15) :=
  (W6_of_ne m ρ c main_arg15 (by decide)).trans (at5_arg15 m ρ c)

end Cert.KernelIdeal.Bound
end
-- ==== Proof.Bound7.lean ====
/-
  The buffers after the host operations between the fourth and the fifth kernel.

  The stretch gathers the second node type's first-layer features along the reverse edges' sources, sums them per
  destination, and slices the second layer's weights out of the stacked weight tables: the reference's operations again,
  on tables that are already the reference's.
-/
import proofs.«103222_j29746943492593_2_alg».proof.Proof.Bound6
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Bound

open Cert.KernelIdeal Cert.KernelIdeal.Gen Cert.Sage Cert.ReferenceIdeal.Read

variable (m : (ℓ : Loc nD τ sig) → Buf (Elt Ideal) ℓ) (ρ : Dev nD → PrngReg) (c : Dev nD)

set_option maxHeartbeats 4000000 in
/-- The second node type's first-layer features, gathered along the reverse edges and summed per destination. -/
theorem at7_v82 : W7 m ρ c (Proc.devRef .tc main_v82) = val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e0 := at6_arg3 m ρ c
  have e1 := at6_v45 m ρ c
  show StableHlo.after hostOps4 (W6 m ρ c) (Proc.devRef .tc main_v82) = _
  generalize W6 m ρ c = W at e0 e1
  after_results_simp
  simp only [e0, e1]
  rfl

set_option maxHeartbeats 4000000 in
/-- The second layer's neighbour weight matrix. -/
theorem at7_v84 : W7 m ρ c (Proc.devRef .tc main_v84) = val_main_v141 (F := Ideal) (m ((c : Thread nD τ).loc main_arg11)) := by
  have e0 := at6_arg11 m ρ c
  show StableHlo.after hostOps4 (W6 m ρ c) (Proc.devRef .tc main_v84) = _
  generalize W6 m ρ c = W at e0
  after_results_simp
  simp only [e0]
  rfl

set_option maxHeartbeats 4000000 in
/-- The second layer's own-feature weight matrix. -/
theorem at7_v86 : W7 m ρ c (Proc.devRef .tc main_v86) = val_main_v149 (F := Ideal) (m ((c : Thread nD τ).loc main_arg12)) := by
  have e0 := at6_arg12 m ρ c
  show StableHlo.after hostOps4 (W6 m ρ c) (Proc.devRef .tc main_v86) = _
  generalize W6 m ρ c = W at e0
  after_results_simp
  simp only [e0]
  rfl

set_option maxHeartbeats 4000000 in
/-- The second layer's bias. -/
theorem at7_v88 : W7 m ρ c (Proc.devRef .tc main_v88) = val_main_v144 (F := Ideal) (m ((c : Thread nD τ).loc main_arg13)) := by
  have e0 := at6_arg13 m ρ c
  show StableHlo.after hostOps4 (W6 m ρ c) (Proc.devRef .tc main_v88) = _
  generalize W6 m ρ c = W at e0
  after_results_simp
  simp only [e0]
  rfl

set_option maxHeartbeats 4000000 in
/-- The reciprocal counts are not touched by this stretch. -/
theorem at7_v12 : W7 m ρ c (Proc.devRef .tc main_v12) = recip (val_main_v62 (F := Ideal) (m ((c : Thread nD τ).loc main_arg3))) := by
  have e0 := at6_v12 m ρ c
  show StableHlo.after hostOps4 (W6 m ρ c) (Proc.devRef .tc main_v12) = _
  generalize W6 m ρ c = W at e0
  after_results_simp
  exact e0

set_option maxHeartbeats 4000000 in
/-- The first node type's first-layer features are not touched by this stretch. -/
theorem at7_v67 : W7 m ρ c (Proc.devRef .tc main_v67) = val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) := by
  have e0 := at6_v67 m ρ c
  show StableHlo.after hostOps4 (W6 m ρ c) (Proc.devRef .tc main_v67) = _
  generalize W6 m ρ c = W at e0
  after_results_simp
  exact e0

set_option maxHeartbeats 4000000 in
/-- Argument 14 is not touched by this stretch. -/
theorem at7_arg14 : W7 m ρ c (Proc.devRef .tc main_arg14) = (m ((c : Thread nD τ).loc main_arg14)) := by
  have e0 := at6_arg14 m ρ c
  show StableHlo.after hostOps4 (W6 m ρ c) (Proc.devRef .tc main_arg14) = _
  generalize W6 m ρ c = W at e0
  after_results_simp
  exact e0

set_option maxHeartbeats 4000000 in
/-- Argument 15 is not touched by this stretch. -/
theorem at7_arg15 : W7 m ρ c (Proc.devRef .tc main_arg15) = (m ((c : Thread nD τ).loc main_arg15)) := by
  have e0 := at6_arg15 m ρ c
  show StableHlo.after hostOps4 (W6 m ρ c) (Proc.devRef .tc main_arg15) = _
  generalize W6 m ρ c = W at e0
  after_results_simp
  exact e0

end Cert.KernelIdeal.Bound

end
-- ==== Proof.Bound8.lean ====
/-
  The result table after the last kernel.

  The last kernel's output is the output head of the second neighbour-mean layer of the tables it found; those are the
  reference's tables, the reciprocal-count column is shared by the two layers (one edge list, counted once), and the
  reference's own term is the head of its second layer: one function of the sixteen argument tables.
-/
import proofs.«103222_j29746943492593_2_alg».proof.Proof.Bound7
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Bound

open Cert.KernelIdeal Cert.KernelIdeal.Gen Cert.Sage Cert.ReferenceIdeal.Read

variable (m : (ℓ : Loc nD τ sig) → Buf (Elt Ideal) ℓ) (ρ : Dev nD → PrngReg) (c : Dev nD)

/-- The second layer's neighbour count is the first layer's: the same edge list, counted the same way. -/
theorem count_again (x3 : (⟨Cert.ReferenceIdeal.S2x1600000, .i32⟩ : BufTy).Contents (Elt Ideal)) :
    val_main_v62 (F := Ideal) x3 = val_main_v134 (F := Ideal) x3 := rfl

/-- After the last kernel the result table is the reference's result, as a function of the argument tables. -/
theorem at8_v89 : W8 m ρ c (Proc.devRef .tc main_v89) = val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W8_arr m ρ c 8).trans ?_
  rw [Cert.KernelIdeal.Blocks.final4 (V7 m ρ) c]
  show head (combine (W7 m ρ c (Proc.devRef .tc main_v82)) (W7 m ρ c (Proc.devRef .tc main_v12)) (W7 m ρ c (Proc.devRef .tc main_v67))
      (W7 m ρ c (Proc.devRef .tc main_v84)) (W7 m ρ c (Proc.devRef .tc main_v86)) (W7 m ρ c (Proc.devRef .tc main_v88)))
      (W7 m ρ c (Proc.devRef .tc main_arg14)) (W7 m ρ c (Proc.devRef .tc main_arg15)) = _
  rw [at7_v82 m ρ c, at7_v12 m ρ c, at7_v67 m ρ c, at7_v84 m ρ c, at7_v86 m ρ c, at7_v88 m ρ c, at7_arg14 m ρ c, at7_arg15 m ρ c,
    count_again, Cert.ReferenceIdeal.Hand.v157_eq, Cert.ReferenceIdeal.Hand.v152_eq]

end Cert.KernelIdeal.Bound

end
-- ==== Proof.lean ====
/-
  The certificate of the heterogeneous two-layer neighbour-mean network: the Pallas program (five kernels among host
  gathers and segment sums) against its jnp reference, over the extended reals.

  * The three frames.  The two kernel programs' frames are the generated ones; the reference has no kernel, and its frame
    is its generated run with the result dropped.
  * The idealization rewrote nothing, so there is nothing to preserve.
  * The value claim.  The kernel program's run leaves every unscoped buffer at the last boundary's contents; the result
    table there is read back through the five kernels and the three host stretches: each kernel's output table is a
    dense layer, a neighbour-mean layer, or the output head of the tables it found, and each host stretch applies to
    those tables the very gathers and segment sums the reference applies.  The reference's run gives its result as the
    composed term of its operations, which, layer by layer, is the same function: the reference divides the summed
    neighbour features by the clamped count where the kernel multiplies by its reciprocal (equal because a count
    clamped below at one is not zero), and adds the bias before the own-feature product where the kernel adds it after
    (addition on the extended reals is commutative and associative).  No finiteness of the inputs is used.
-/
import proofs.«103222_j29746943492593_2_alg».proof.Defs
import proofs.«103222_j29746943492593_2_alg».proof.Proof.Gen.Kernel
import proofs.«103222_j29746943492593_2_alg».proof.Proof.Gen.Kernel.Frame
import proofs.«103222_j29746943492593_2_alg».proof.Proof.Gen.KernelIdeal
import proofs.«103222_j29746943492593_2_alg».proof.Proof.Gen.KernelIdeal.Frame
import proofs.«103222_j29746943492593_2_alg».proof.Proof.Gen.ReferenceIdeal
import proofs.«103222_j29746943492593_2_alg».proof.Proof.Gen.ReferenceIdeal.Run
import proofs.«103222_j29746943492593_2_alg».proof.Proof.Gen.ReferenceIdeal.Read
import proofs.«103222_j29746943492593_2_alg».proof.Proof.Gen.Pre_finite_inputs
import proofs.«103222_j29746943492593_2_alg».proof.Proof.KernelRun
import proofs.«103222_j29746943492593_2_alg».proof.Proof.Bound8
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's composed term of the argument tables in their result table. -/
theorem algebraic : Cert.algebraic_KernelIdeal_ReferenceIdeal := by
  intro m ρ m' ρ' _ hagree
  refine ⟨fun c => Cert.KernelIdeal.Gen.W8 m ρ c (Proc.devRef .tc Cert.KernelIdeal.main_v89),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v157_eq, h0, h1, h2, h3, h4, h5, h6, h7, h8, h9, h10, h11, h12, h13, h14, h15]
  exact (Cert.KernelIdeal.Bound.at8_v89 m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
